-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x64 : Shape := ⟨2, ![600000, 64]⟩
abbrev S400000x64 : Shape := ⟨2, ![400000, 64]⟩
abbrev S2000000 : Shape := ⟨1, ![2000000]⟩
abbrev S_ : Shape := ⟨0, ![]⟩

class Facts : Prop where
  bcast_S_S600000x64 : S_.BroadcastsInDim S600000x64 (![] : Fin 0 → Fin S600000x64.rank)
  reducesTo_S600000x64_S_d0_1 : S600000x64.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_

variable [Facts]

def fn {F : FTy → Type} [FloatOps F] (main_arg0 : FVec F S600000x64 .f32) (main_arg1 : FVec F S400000x64 .f32) (main_arg2 : IVec S2000000 32) (main_arg3 : IVec S2000000 32) : IVec S_ 1 :=
  let main_v0 : FVec F S600000x64 .f32 := Host.absf main_arg0
  let main_cst : FVec F S_ .f32 := constant S_ .f32 0x7F800000#32
  let main_v1 : FVec F S600000x64 .f32 := broadcastInDim S600000x64 ![] bcast_S_S600000x64 main_cst
  let main_v2 : IVec S600000x64 1 := cmpf .olt main_v0 main_v1
  let main_c : IVec S_ 1 := constantI S_ 1 1#1
  let main_v3 : IVec S_ 1 := (fun x v => Host.reduce IntOp.andi x v reducesTo_S600000x64_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  main_v8
-- ==== Kernel.lean ====
abbrev S600000x64 : Shape := ⟨2, ![600000, 64]⟩
abbrev S400000x64 : Shape := ⟨2, ![400000, 64]⟩
abbrev S2000000 : Shape := ⟨1, ![2000000]⟩
abbrev S_ : Shape := ⟨0, ![]⟩
abbrev S4000000 : Shape := ⟨1, ![4000000]⟩
abbrev S1000000 : Shape := ⟨1, ![1000000]⟩
abbrev S4000000x1 : Shape := ⟨2, ![4000000, 1]⟩
abbrev S1000000x1 : Shape := ⟨2, ![1000000, 1]⟩
abbrev S1000000x64 : Shape := ⟨2, ![1000000, 64]⟩
abbrev S4000x64 : Shape := ⟨2, ![4000, 64]⟩
abbrev S4000x1 : Shape := ⟨2, ![4000, 1]⟩
abbrev S4000000x64 : Shape := ⟨2, ![4000000, 64]⟩

abbrev nBuf : Space → Nat
  | .hbm => 77
  | .vmem => 36
  | .smem => 0
  | _ => 0

abbrev bufTy : (tb : Table) → Fin (tcTables nBuf tb) → BufTy
  | .hbm, ⟨0, _⟩ => ⟨S600000x64, .f32⟩
  | .hbm, ⟨1, _⟩ => ⟨S400000x64, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i32⟩
  | .hbm, ⟨7, _⟩ => ⟨S4000000, .i32⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S4000000, .i32⟩
  | .hbm, ⟨12, _⟩ => ⟨S_, .f32⟩
  | .hbm, ⟨13, _⟩ => ⟨S4000000, .f32⟩
  | .hbm, ⟨14, _⟩ => ⟨S_, .f32⟩
  | .hbm, ⟨15, _⟩ => ⟨S1000000, .f32⟩
  | .hbm, ⟨16, _⟩ => ⟨S4000000x1, .i32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S1000000x1, .f32⟩
  | .hbm, ⟨25, _⟩ => ⟨S1000000x64, .f32⟩
  | .hbm, ⟨26, _⟩ => ⟨S1000000x64, .f32⟩
  | .hbm, ⟨27, _⟩ => ⟨S_, .i32⟩
  | .hbm, ⟨28, _⟩ => ⟨S4000000, .i32⟩
  | .hbm, ⟨29, _⟩ => ⟨S4000000, .i1⟩
  | .hbm, ⟨30, _⟩ => ⟨S_, .i32⟩
  | .hbm, ⟨31, _⟩ => ⟨S4000000, .i32⟩
  | .hbm, ⟨32, _⟩ => ⟨S4000000, .i32⟩
  | .hbm, ⟨33, _⟩ => ⟨S4000000, .i32⟩
  | .hbm, ⟨34, _⟩ => ⟨S4000000x1, .i32⟩
  | .hbm, ⟨35, _⟩ => ⟨S4000000x64, .f32⟩
  | .hbm, ⟨36, _⟩ => ⟨S_, .f32⟩
  | .hbm, ⟨37, _⟩ => ⟨S1000000x64, .f32⟩
  | .hbm, ⟨38, _⟩ => ⟨S4000000x1, .i32⟩
  | .hbm, ⟨39, _⟩ => ⟨S1000000x64, .f32⟩
  | .hbm, ⟨40, _⟩ => ⟨S1000000x64, .f32⟩
  | .hbm, ⟨41, _⟩ => ⟨S1000000x64, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000x64, .f32⟩
  | .hbm, ⟨51, _⟩ => ⟨S_, .f32⟩
  | .hbm, ⟨52, _⟩ => ⟨S1000000x64, .f32⟩
  | .hbm, ⟨53, _⟩ => ⟨S4000000x1, .i32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S_, .i32⟩
  | .hbm, ⟨58, _⟩ => ⟨S4000000, .i32⟩
  | .hbm, ⟨59, _⟩ => ⟨S4000000, .i1⟩
  | .hbm, ⟨60, _⟩ => ⟨S_, .i32⟩
  | .hbm, ⟨61, _⟩ => ⟨S4000000, .i32⟩
  | .hbm, ⟨62, _⟩ => ⟨S4000000, .i32⟩
  | .hbm, ⟨63, _⟩ => ⟨S4000000, .i32⟩
  | .hbm, ⟨64, _⟩ => ⟨S4000000x1, .i32⟩
  | .hbm, ⟨65, _⟩ => ⟨S4000000x64, .f32⟩
  | .hbm, ⟨66, _⟩ => ⟨S_, .f32⟩
  | .hbm, ⟨67, _⟩ => ⟨S1000000x64, .f32⟩
  | .hbm, ⟨68, _⟩ => ⟨S4000000x1, .i32⟩
  | .hbm, ⟨69, _⟩ => ⟨S1000000x64, .f32⟩
  | .hbm, ⟨70, _⟩ => ⟨S1000000x64, .f32⟩
  | .hbm, ⟨71, _⟩ => ⟨S1000000x64, .f32⟩
  | .hbm, ⟨72, _⟩ => ⟨S_, .f32⟩
  | .hbm, ⟨73, _⟩ => ⟨S1000000x64, .f32⟩
  | .hbm, ⟨74, _⟩ => ⟨S1000000x64, .f32⟩
  | .hbm, ⟨75, _⟩ => ⟨S600000x64, .f32⟩
  | .hbm, ⟨76, _⟩ => ⟨S400000x64, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x1, .f32⟩
  | .local _ .vmem, ⟨29, _⟩ => ⟨S4000x1, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | _, _ => ⟨S600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_c_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49_0 : Ref sig .tc := ⟨.hbm, 70, rfl⟩
abbrev main_v49_1 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S2000000 : S_.BroadcastsInDim S2000000 (![] : Fin 0 → Fin S2000000.rank)
  concatenates_S2000000_S2000000_S4000000_d0 : Shape.Concatenates [S2000000, S2000000] S4000000 0
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  bcast_S1000000_S1000000x1_0 : S1000000.BroadcastsInDim S1000000x1 (![0] : Fin 1 → Fin S1000000x1.rank)
  concatenates_S600000x64_S400000x64_S1000000x64_d0 : Shape.Concatenates [S600000x64, S400000x64] S1000000x64 0
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S1000000x64 : S_.BroadcastsInDim S1000000x64 (![] : Fin 0 → Fin S1000000x64.rank)
  slices_S1000000x64_S600000x64_0_0 : S1000000x64.Slices ![0, 0] S600000x64
  slices_S1000000x64_S400000x64_600000_0 : S1000000x64.Slices ![600000, 0] S400000x64
  scatter_S1000000_S4000000x1_S4000000_n_0_0_1_wf : ScatterDims.WF S1000000 S4000000x1 S4000000 [] [0] [0] 1
  gather_S1000000x64_S4000000x1_S4000000x64_1_0_n_n_0_1_164_wf : GatherDims.WF S1000000x64 S4000000x1 S4000000x64 [1] [0] [] [0] [] 1 ![1, 64]
  scatter_S1000000x64_S4000000x1_S4000000x64_1_0_0_1_wf : ScatterDims.WF S1000000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .f32 = 32 ∨ (Rect.block (s := S1000000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1000000x64.size a
  hwx0_2 : ∀ i : grid0.Coords, EltTy.bits .f32 = 32 ∨ (Rect.block (s := S1000000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1000000x64.size a
  hwx1_0 : ∀ i : grid1.Coords, EltTy.bits .f32 = 32 ∨ (Rect.block (s := S1000000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1000000x1.size a
  hwx1_1 : ∀ i : grid1.Coords, EltTy.bits .f32 = 32 ∨ (Rect.block (s := S1000000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1000000x64.size a
  hwx1_2 : ∀ i : grid1.Coords, EltTy.bits .f32 = 32 ∨ (Rect.block (s := S1000000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S1000000x64.size a
  hwx1_3 : ∀ i : grid1.Coords, EltTy.bits .f32 = 32 ∨ (Rect.block (s := S1000000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S1000000x64.size a
  hwx1_4 : ∀ i : grid1.Coords, EltTy.bits .f32 = 32 ∨ (Rect.block (s := S1000000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S1000000x64.size a
  hwx2_0 : ∀ i : grid2.Coords, EltTy.bits .f32 = 32 ∨ (Rect.block (s := S1000000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S1000000x1.size a
  hwx2_1 : ∀ i : grid2.Coords, EltTy.bits .f32 = 32 ∨ (Rect.block (s := S1000000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S1000000x64.size a
  hwx2_2 : ∀ i : grid2.Coords, EltTy.bits .f32 = 32 ∨ (Rect.block (s := S1000000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S1000000x64.size a
  hwx2_3 : ∀ i : grid2.Coords, EltTy.bits .f32 = 32 ∨ (Rect.block (s := S1000000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S1000000x64.size a
  hwx2_4 : ∀ i : grid2.Coords, EltTy.bits .f32 = 32 ∨ (Rect.block (s := S1000000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S1000000x64.size a
  hwx3_0 : ∀ i : grid3.Coords, EltTy.bits .f32 = 32 ∨ (Rect.block (s := S1000000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S1000000x1.size a
  hwx3_1 : ∀ i : grid3.Coords, EltTy.bits .f32 = 32 ∨ (Rect.block (s := S1000000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S1000000x64.size a
  hwx3_2 : ∀ i : grid3.Coords, EltTy.bits .f32 = 32 ∨ (Rect.block (s := S1000000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S1000000x64.size a
  hwx3_3 : ∀ i : grid3.Coords, EltTy.bits .f32 = 32 ∨ (Rect.block (s := S1000000x64) S4000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S1000000x64.size a
  hwx3_4 : ∀ i : grid3.Coords, EltTy.bits .f32 = 32 ∨ (Rect.block (s := S1000000x64) S4000x64.size (cc3_transform_4 i) (hinb3_4 i)).WholeWords (EltTy.packing .f32)

variable [Facts₀]

def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def gather_S1000000x64_S4000000x1_S4000000x64_1_0_n_n_0_1_164 : GatherDims S1000000x64 S4000000x1 S4000000x64 where
  offsetDims := [1]
  collapsedSliceDims := [0]
  operandBatchingDims := []
  startIndicesBatchingDims := []
  startIndexMap := [0]
  indexVectorDim := 1
  sliceSizes := ![1, 64]
  wf := gather_S1000000x64_S4000000x1_S4000000x64_1_0_n_n_0_1_164_wf
def scatter_S1000000x64_S4000000x1_S4000000x64_1_0_0_1 : ScatterDims S1000000x64 S4000000x1 S4000000x64 where
  updateWindowDims := [1]
  insertedWindowDims := [0]
  scatterDimsToOperandDims := [0]
  indexVectorDim := 1
  wf := scatter_S1000000x64_S4000000x1_S4000000x64_1_0_0_1_wf

abbrev win0_0 : Pipeline.Window sig grid0 :=
  Pipeline.Window.ofSpec (Memref.whole main_v15) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S4000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27_1) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38_0) S4000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v38_1) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38_1) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49_0) S4000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v49_1) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S600000x64 : Shape := ⟨2, ![600000, 64]⟩
abbrev S400000x64 : Shape := ⟨2, ![400000, 64]⟩
abbrev S2000000 : Shape := ⟨1, ![2000000]⟩
abbrev S_ : Shape := ⟨0, ![]⟩
abbrev S4000000 : Shape := ⟨1, ![4000000]⟩
abbrev S1000000 : Shape := ⟨1, ![1000000]⟩
abbrev S4000000x1 : Shape := ⟨2, ![4000000, 1]⟩
abbrev S1000000x64 : Shape := ⟨2, ![1000000, 64]⟩
abbrev S4000000x64 : Shape := ⟨2, ![4000000, 64]⟩

abbrev nBuf : Space → Nat
  | .hbm => 100
  | .vmem => 0
  | .smem => 0
  | _ => 0

abbrev bufTy : (tb : Table) → Fin (tcTables nBuf tb) → BufTy
  | .hbm, ⟨0, _⟩ => ⟨S600000x64, .f32⟩
  | .hbm, ⟨1, _⟩ => ⟨S400000x64, .f32⟩
  | .hbm, ⟨2, _⟩ => ⟨S2000000, .i32⟩
  | .hbm, ⟨3, _⟩ => ⟨S2000000, .i32⟩
  | .hbm, ⟨4, _⟩ => ⟨S_, .i32⟩
  | .hbm, ⟨5, _⟩ => ⟨S2000000, .i32⟩
  | .hbm, ⟨6, _⟩ => ⟨S2000000, .i32⟩
  | .hbm, ⟨7, _⟩ => ⟨S4000000, .i32⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S4000000, .i32⟩
  | .hbm, ⟨12, _⟩ => ⟨S_, .f32⟩
  | .hbm, ⟨13, _⟩ => ⟨S4000000, .f32⟩
  | .hbm, ⟨14, _⟩ => ⟨S_, .f32⟩
  | .hbm, ⟨15, _⟩ => ⟨S1000000, .f32⟩
  | .hbm, ⟨16, _⟩ => ⟨S4000000x1, .i32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S_, .i32⟩
  | .hbm, ⟨34, _⟩ => ⟨S4000000, .i32⟩
  | .hbm, ⟨35, _⟩ => ⟨S4000000, .i1⟩
  | .hbm, ⟨36, _⟩ => ⟨S_, .i32⟩
  | .hbm, ⟨37, _⟩ => ⟨S4000000, .i32⟩
  | .hbm, ⟨38, _⟩ => ⟨S4000000, .i32⟩
  | .hbm, ⟨39, _⟩ => ⟨S4000000, .i32⟩
  | .hbm, ⟨40, _⟩ => ⟨S4000000x1, .i32⟩
  | .hbm, ⟨41, _⟩ => ⟨S4000000, .f32⟩
  | .hbm, ⟨42, _⟩ => ⟨S4000000, .f32⟩
  | .hbm, ⟨43, _⟩ => ⟨S1000000x64, .f32⟩
  | .hbm, ⟨44, _⟩ => ⟨S4000000x1, .f32⟩
  | .hbm, ⟨45, _⟩ => ⟨S_, .i32⟩
  | .hbm, ⟨46, _⟩ => ⟨S4000000, .i32⟩
  | .hbm, ⟨47, _⟩ => ⟨S4000000, .i1⟩
  | .hbm, ⟨48, _⟩ => ⟨S_, .i32⟩
  | .hbm, ⟨49, _⟩ => ⟨S4000000, .i32⟩
  | .hbm, ⟨50, _⟩ => ⟨S4000000, .i32⟩
  | .hbm, ⟨51, _⟩ => ⟨S4000000, .i32⟩
  | .hbm, ⟨52, _⟩ => ⟨S4000000x1, .i32⟩
  | .hbm, ⟨53, _⟩ => ⟨S4000000x64, .f32⟩
  | .hbm, ⟨54, _⟩ => ⟨S4000000x64, .f32⟩
  | .hbm, ⟨55, _⟩ => ⟨S4000000x64, .f32⟩
  | .hbm, ⟨56, _⟩ => ⟨S_, .f32⟩
  | .hbm, ⟨57, _⟩ => ⟨S1000000x64, .f32⟩
  | .hbm, ⟨58, _⟩ => ⟨S4000000x1, .i32⟩
  | .hbm, ⟨59, _⟩ => ⟨S1000000x64, .f32⟩
  | .hbm, ⟨60, _⟩ => ⟨S1000000x64, .f32⟩
  | .hbm, ⟨61, _⟩ => ⟨S4000000x1, .f32⟩
  | .hbm, ⟨62, _⟩ => ⟨S_, .i32⟩
  | .hbm, ⟨63, _⟩ => ⟨S4000000, .i32⟩
  | .hbm, ⟨64, _⟩ => ⟨S4000000, .i1⟩
  | .hbm, ⟨65, _⟩ => ⟨S_, .i32⟩
  | .hbm, ⟨66, _⟩ => ⟨S4000000, .i32⟩
  | .hbm, ⟨67, _⟩ => ⟨S4000000, .i32⟩
  | .hbm, ⟨68, _⟩ => ⟨S4000000, .i32⟩
  | .hbm, ⟨69, _⟩ => ⟨S4000000x1, .i32⟩
  | .hbm, ⟨70, _⟩ => ⟨S4000000x64, .f32⟩
  | .hbm, ⟨71, _⟩ => ⟨S4000000x64, .f32⟩
  | .hbm, ⟨72, _⟩ => ⟨S4000000x64, .f32⟩
  | .hbm, ⟨73, _⟩ => ⟨S_, .f32⟩
  | .hbm, ⟨74, _⟩ => ⟨S1000000x64, .f32⟩
  | .hbm, ⟨75, _⟩ => ⟨S4000000x1, .i32⟩
  | .hbm, ⟨76, _⟩ => ⟨S1000000x64, .f32⟩
  | .hbm, ⟨77, _⟩ => ⟨S1000000x64, .f32⟩
  | .hbm, ⟨78, _⟩ => ⟨S4000000x1, .f32⟩
  | .hbm, ⟨79, _⟩ => ⟨S_, .i32⟩
  | .hbm, ⟨80, _⟩ => ⟨S4000000, .i32⟩
  | .hbm, ⟨81, _⟩ => ⟨S4000000, .i1⟩
  | .hbm, ⟨82, _⟩ => ⟨S_, .i32⟩
  | .hbm, ⟨83, _⟩ => ⟨S4000000, .i32⟩
  | .hbm, ⟨84, _⟩ => ⟨S4000000, .i32⟩
  | .hbm, ⟨85, _⟩ => ⟨S4000000, .i32⟩
  | .hbm, ⟨86, _⟩ => ⟨S4000000x1, .i32⟩
  | .hbm, ⟨87, _⟩ => ⟨S4000000x64, .f32⟩
  | .hbm, ⟨88, _⟩ => ⟨S4000000x64, .f32⟩
  | .hbm, ⟨89, _⟩ => ⟨S4000000x64, .f32⟩
  | .hbm, ⟨90, _⟩ => ⟨S_, .f32⟩
  | .hbm, ⟨91, _⟩ => ⟨S1000000x64, .f32⟩
  | .hbm, ⟨92, _⟩ => ⟨S4000000x1, .i32⟩
  | .hbm, ⟨93, _⟩ => ⟨S1000000x64, .f32⟩
  | .hbm, ⟨94, _⟩ => ⟨S1000000x64, .f32⟩
  | .hbm, ⟨95, _⟩ => ⟨S_, .f32⟩
  | .hbm, ⟨96, _⟩ => ⟨S1000000x64, .f32⟩
  | .hbm, ⟨97, _⟩ => ⟨S1000000x64, .f32⟩
  | .hbm, ⟨98, _⟩ => ⟨S600000x64, .f32⟩
  | .hbm, ⟨99, _⟩ => ⟨S400000x64, .f32⟩
  | _, _ => ⟨S600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_c_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_14 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_17 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  concatenates_S2000000_S2000000_S4000000_d0 : Shape.Concatenates [S2000000, S2000000] S4000000 0
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  concatenates_S600000x64_S400000x64_S1000000x64_d0 : Shape.Concatenates [S600000x64, S400000x64] S1000000x64 0
  bcast_S4000000x1_S4000000x64_0_1 : S4000000x1.BroadcastsInDim S4000000x64 (![0, 1] : Fin 2 → Fin S4000000x64.rank)
  bcast_S_S1000000x64 : S_.BroadcastsInDim S1000000x64 (![] : Fin 0 → Fin S1000000x64.rank)
  slices_S1000000x64_S600000x64_0_0 : S1000000x64.Slices ![0, 0] S600000x64
  slices_S1000000x64_S400000x64_600000_0 : S1000000x64.Slices ![600000, 0] S400000x64
  scatter_S1000000_S4000000x1_S4000000_n_0_0_1_wf : ScatterDims.WF S1000000 S4000000x1 S4000000 [] [0] [0] 1
  gather_S1000000_S4000000x1_S4000000_n_0_n_n_0_1_1_wf : GatherDims.WF S1000000 S4000000x1 S4000000 [] [0] [] [0] [] 1 ![1]
  gather_S1000000x64_S4000000x1_S4000000x64_1_0_n_n_0_1_164_wf : GatherDims.WF S1000000x64 S4000000x1 S4000000x64 [1] [0] [] [0] [] 1 ![1, 64]
  scatter_S1000000x64_S4000000x1_S4000000x64_1_0_0_1_wf : ScatterDims.WF S1000000x64 S4000000x1 S4000000x64 [1] [0] [0] 1

variable [Facts₀]

def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def gather_S1000000_S4000000x1_S4000000_n_0_n_n_0_1_1 : GatherDims S1000000 S4000000x1 S4000000 where
  offsetDims := []
  collapsedSliceDims := [0]
  operandBatchingDims := []
  startIndicesBatchingDims := []
  startIndexMap := [0]
  indexVectorDim := 1
  sliceSizes := ![1]
  wf := gather_S1000000_S4000000x1_S4000000_n_0_n_n_0_1_1_wf
def gather_S1000000x64_S4000000x1_S4000000x64_1_0_n_n_0_1_164 : GatherDims S1000000x64 S4000000x1 S4000000x64 where
  offsetDims := [1]
  collapsedSliceDims := [0]
  operandBatchingDims := []
  startIndicesBatchingDims := []
  startIndexMap := [0]
  indexVectorDim := 1
  sliceSizes := ![1, 64]
  wf := gather_S1000000x64_S4000000x1_S4000000x64_1_0_n_n_0_1_164_wf
def scatter_S1000000x64_S4000000x1_S4000000x64_1_0_0_1 : ScatterDims S1000000x64 S4000000x1 S4000000x64 where
  updateWindowDims := [1]
  insertedWindowDims := [0]
  scatterDimsToOperandDims := [0]
  indexVectorDim := 1
  wf := scatter_S1000000x64_S4000000x1_S4000000x64_1_0_0_1_wf

class Facts : Prop extends Facts₀ where

variable [Facts]
-- ==== Proof.KernelRun.lean ====
/-
  The kernel program's run with its two results kept.

  The program is four launches of a blocked kernel among five stretches of host operations. Every weakly fair execution
  terminates, nothing faulting, and the last stretch leaves every buffer of the core at the contents obtained by folding
  the stretches and the launches' write-backs over the launch memory. Read at the two result buffers and at the four
  arguments, that is the statement below: each result at its folded contents, each argument as launched.
-/
import proofs.«167429_j85753317032076_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the two result buffers at the contents the last
    stretch of host operations leaves them, and the four argument arrays as launched. -/
theorem run : θ_run defs (onTc (τ := τ) (main (F := F))) ⟨m, fun _ => 0, ρ⟩ (fun r => ∀ c : Dev nD,
      r.2.mem ((c.tc : Thread nD τ).loc main_v52) = W9 m ρ c (Proc.devRef .tc main_v52)
      ∧ r.2.mem ((c.tc : Thread nD τ).loc main_v53) = W9 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v52 (by decide)),
       h c _ (mem_uc main_v53 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.Results

end
-- ==== Proof.KernelHops.lean ====
/-
  The host stretches between the kernel launches, read buffer by buffer.

  Each stretch of host operations between two launches wraps the source indices, gathers the rows of the table the
  last launch wrote at them, and sums the gathered rows onto their landing nodes. The edge lists, the column of
  normalisation factors, the initial table and the running sum are not written by a stretch that does not compute
  them, nor by a launch that only reads them, so at every later boundary they still hold what the first stretch
  (or the launch that wrote them) left.
-/
import proofs.«167429_j85753317032076_2_alg».proof.Proof.Gen.KernelIdeal.Frame
import Idealize.ShloMosaic.Lib.StableHlo.Run

set_option maxRecDepth 16384

noncomputable section

namespace Cert.KernelIdeal.Hops

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## The shared host terms -/

/-- The landing nodes as a one-column array. -/
def rowsI (rows : IVec S4000000 32) : IVec S4000000x1 32 :=
  broadcastInDim S4000000x1 ![0] bcast_S4000000_S4000000x1_0 rows

/-- The source nodes, a negative index wrapped by the number of nodes, as a one-column array. -/
def colsI (cols : IVec S4000000 32) : IVec S4000000x1 32 :=
  broadcastInDim S4000000x1 ![0] bcast_S4000000_S4000000x1_0
    (select (cmpi .slt cols (broadcastInDim S4000000 ![] bcast_S_S4000000 (constantI S_ 32 0#32)))
      (addi cols (broadcastInDim S4000000 ![] bcast_S_S4000000 (constantI S_ 32 1000000#32))) cols)

/-- The zero table the sums start from. -/
def zeros : FVec F S1000000x64 .f32 :=
  broadcastInDim S1000000x64 ![] bcast_S_S1000000x64 (constant S_ .f32 0x00000000#32)

/-- Gather the table's rows at the source nodes and sum them onto the landing nodes. -/
def aggregate (rows cols : IVec S4000000 32) (y : FVec F S1000000x64 .f32) : FVec F S1000000x64 .f32 :=
  Host.scatterAdd scatter_S1000000x64_S4000000x1_S4000000x64_1_0_0_1 zeros (rowsI rows)
    (Host.gather gather_S1000000x64_S4000000x1_S4000000x64_1_0_n_n_0_1_164 y (colsI cols))

/-! ## What each stretch computes -/

theorem sum1 (c : Dev nD) : W3 m ρ c (Proc.devRef .tc main_v26)
    = aggregate (W2 m ρ c (Proc.devRef .tc main_v2)) (W2 m ρ c (Proc.devRef .tc main_v5)) (W2 m ρ c (Proc.devRef .tc main_v16)) := by
  show StableHlo.after hostOps1 (W2 m ρ c) (Proc.devRef .tc main_v26) = _
  after_results <;> rfl

theorem sum2 (c : Dev nD) : W5 m ρ c (Proc.devRef .tc main_v37)
    = aggregate (W4 m ρ c (Proc.devRef .tc main_v2)) (W4 m ρ c (Proc.devRef .tc main_v5)) (W4 m ρ c (Proc.devRef .tc main_v27_0)) := by
  show StableHlo.after hostOps2 (W4 m ρ c) (Proc.devRef .tc main_v37) = _
  after_results <;> rfl

theorem sum3 (c : Dev nD) : W7 m ρ c (Proc.devRef .tc main_v48)
    = aggregate (W6 m ρ c (Proc.devRef .tc main_v2)) (W6 m ρ c (Proc.devRef .tc main_v5)) (W6 m ρ c (Proc.devRef .tc main_v38_0)) := by
  show StableHlo.after hostOps3 (W6 m ρ c) (Proc.devRef .tc main_v48) = _
  after_results <;> rfl

/-- The last stretch: a quarter of the accumulated table, then its first 600000 rows. -/
theorem out_users (c : Dev nD) : W9 m ρ c (Proc.devRef .tc main_v52)
    = extractStridedSlice S600000x64 ![0, 0] (mulf (W8 m ρ c (Proc.devRef .tc main_v49_1))
        (broadcastInDim S1000000x64 ![] bcast_S_S1000000x64 (constant S_ .f32 0x3E800000#32)))
        slices_S1000000x64_S600000x64_0_0 := by
  show StableHlo.after hostOps4 (W8 m ρ c) (Proc.devRef .tc main_v52) = _
  after_results <;> rfl

/-- The last stretch: a quarter of the accumulated table, then its last 400000 rows. -/
theorem out_items (c : Dev nD) : W9 m ρ c (Proc.devRef .tc main_v53)
    = extractStridedSlice S400000x64 ![600000, 0] (mulf (W8 m ρ c (Proc.devRef .tc main_v49_1))
        (broadcastInDim S1000000x64 ![] bcast_S_S1000000x64 (constant S_ .f32 0x3E800000#32)))
        slices_S1000000x64_S400000x64_600000_0 := by
  show StableHlo.after hostOps4 (W8 m ρ c) (Proc.devRef .tc main_v53) = _
  after_results <;> rfl

/-! ## What a stretch leaves as it found it -/

theorem hop1_v2 (c : Dev nD) : W3 m ρ c (Proc.devRef .tc main_v2) = W2 m ρ c (Proc.devRef .tc main_v2) := by
  show StableHlo.after hostOps1 (W2 m ρ c) (Proc.devRef .tc main_v2) = _
  after_results <;> rfl
theorem hop1_v5 (c : Dev nD) : W3 m ρ c (Proc.devRef .tc main_v5) = W2 m ρ c (Proc.devRef .tc main_v5) := by
  show StableHlo.after hostOps1 (W2 m ρ c) (Proc.devRef .tc main_v5) = _
  after_results <;> rfl
theorem hop1_v14 (c : Dev nD) : W3 m ρ c (Proc.devRef .tc main_v14) = W2 m ρ c (Proc.devRef .tc main_v14) := by
  show StableHlo.after hostOps1 (W2 m ρ c) (Proc.devRef .tc main_v14) = _
  after_results <;> rfl
theorem hop1_v15 (c : Dev nD) : W3 m ρ c (Proc.devRef .tc main_v15) = W2 m ρ c (Proc.devRef .tc main_v15) := by
  show StableHlo.after hostOps1 (W2 m ρ c) (Proc.devRef .tc main_v15) = _
  after_results <;> rfl
theorem hop2_v2 (c : Dev nD) : W5 m ρ c (Proc.devRef .tc main_v2) = W4 m ρ c (Proc.devRef .tc main_v2) := by
  show StableHlo.after hostOps2 (W4 m ρ c) (Proc.devRef .tc main_v2) = _
  after_results <;> rfl
theorem hop2_v5 (c : Dev nD) : W5 m ρ c (Proc.devRef .tc main_v5) = W4 m ρ c (Proc.devRef .tc main_v5) := by
  show StableHlo.after hostOps2 (W4 m ρ c) (Proc.devRef .tc main_v5) = _
  after_results <;> rfl
theorem hop2_v14 (c : Dev nD) : W5 m ρ c (Proc.devRef .tc main_v14) = W4 m ρ c (Proc.devRef .tc main_v14) := by
  show StableHlo.after hostOps2 (W4 m ρ c) (Proc.devRef .tc main_v14) = _
  after_results <;> rfl
theorem hop2_v27_1 (c : Dev nD) : W5 m ρ c (Proc.devRef .tc main_v27_1) = W4 m ρ c (Proc.devRef .tc main_v27_1) := by
  show StableHlo.after hostOps2 (W4 m ρ c) (Proc.devRef .tc main_v27_1) = _
  after_results <;> rfl
theorem hop3_v14 (c : Dev nD) : W7 m ρ c (Proc.devRef .tc main_v14) = W6 m ρ c (Proc.devRef .tc main_v14) := by
  show StableHlo.after hostOps3 (W6 m ρ c) (Proc.devRef .tc main_v14) = _
  after_results <;> rfl
theorem hop3_v38_1 (c : Dev nD) : W7 m ρ c (Proc.devRef .tc main_v38_1) = W6 m ρ c (Proc.devRef .tc main_v38_1) := by
  show StableHlo.after hostOps3 (W6 m ρ c) (Proc.devRef .tc main_v38_1) = _
  after_results <;> rfl

/-! ## The edge lists, the factors and the initial table at every later boundary -/

theorem rows_W2 (c : Dev nD) : W2 m ρ c (Proc.devRef .tc main_v2) = W1 m ρ c (Proc.devRef .tc main_v2) := W2_of_ne m ρ c main_v2 (by decide)
theorem cols_W2 (c : Dev nD) : W2 m ρ c (Proc.devRef .tc main_v5) = W1 m ρ c (Proc.devRef .tc main_v5) := W2_of_ne m ρ c main_v5 (by decide)
/-- The factor column is an input window of the first launch: the launch leaves it as entered. -/
theorem fact_W2 (c : Dev nD) : W2 m ρ c (Proc.devRef .tc main_v14) = W1 m ρ c (Proc.devRef .tc main_v14) :=
  (W2_arr m ρ c 1).trans (((dat0 (V1 m ρ) c).arrAt_in 1 rfl cfg0.N).trans (A_eq0 (V1 m ρ) c 1))
/-- The initial table is an input window of the first launch: the launch leaves it as entered. -/
theorem init_W2 (c : Dev nD) : W2 m ρ c (Proc.devRef .tc main_v15) = W1 m ρ c (Proc.devRef .tc main_v15) :=
  (W2_arr m ρ c 0).trans (((dat0 (V1 m ρ) c).arrAt_in 0 rfl cfg0.N).trans (A_eq0 (V1 m ρ) c 0))

theorem rows_W4 (c : Dev nD) : W4 m ρ c (Proc.devRef .tc main_v2) = W1 m ρ c (Proc.devRef .tc main_v2) :=
  (W4_of_ne m ρ c main_v2 (by decide)).trans ((hop1_v2 m ρ c).trans (rows_W2 m ρ c))
theorem cols_W4 (c : Dev nD) : W4 m ρ c (Proc.devRef .tc main_v5) = W1 m ρ c (Proc.devRef .tc main_v5) :=
  (W4_of_ne m ρ c main_v5 (by decide)).trans ((hop1_v5 m ρ c).trans (cols_W2 m ρ c))
theorem fact_W3 (c : Dev nD) : W3 m ρ c (Proc.devRef .tc main_v14) = W1 m ρ c (Proc.devRef .tc main_v14) :=
  (hop1_v14 m ρ c).trans (fact_W2 m ρ c)
theorem init_W3 (c : Dev nD) : W3 m ρ c (Proc.devRef .tc main_v15) = W1 m ρ c (Proc.devRef .tc main_v15) :=
  (hop1_v15 m ρ c).trans (init_W2 m ρ c)
theorem fact_W5 (c : Dev nD) : W5 m ρ c (Proc.devRef .tc main_v14) = W1 m ρ c (Proc.devRef .tc main_v14) :=
  (hop2_v14 m ρ c).trans (((W4_arr m ρ c 1).trans (((dat1 (V3 m ρ) c).arrAt_in 1 rfl cfg1.N).trans (A_eq1 (V3 m ρ) c 1))).trans
    (fact_W3 m ρ c))

theorem rows_W6 (c : Dev nD) : W6 m ρ c (Proc.devRef .tc main_v2) = W1 m ρ c (Proc.devRef .tc main_v2) :=
  (W6_of_ne m ρ c main_v2 (by decide)).trans ((hop2_v2 m ρ c).trans (rows_W4 m ρ c))
theorem cols_W6 (c : Dev nD) : W6 m ρ c (Proc.devRef .tc main_v5) = W1 m ρ c (Proc.devRef .tc main_v5) :=
  (W6_of_ne m ρ c main_v5 (by decide)).trans ((hop2_v5 m ρ c).trans (cols_W4 m ρ c))
theorem fact_W7 (c : Dev nD) : W7 m ρ c (Proc.devRef .tc main_v14) = W1 m ρ c (Proc.devRef .tc main_v14) :=
  (hop3_v14 m ρ c).trans (((W6_arr m ρ c 1).trans (((dat2 (V5 m ρ) c).arrAt_in 1 rfl cfg2.N).trans (A_eq2 (V5 m ρ) c 1))).trans
    (fact_W5 m ρ c))

end Cert.KernelIdeal.Hops

end
-- ==== Proof.KernelBlocks.lean ====
/-
  What each launch of the blocked kernels leaves in its output arrays, as whole-array functions of the arrays it reads.

  Every launch walks 250 grid points; point t reads rows 4000·t … 4000·t + 3999 of each input (a 4000 × 64 block of a
  table, the matching 4000 × 1 block of the column of normalisation factors) and writes the same rows of each output.
  The first kernel multiplies every row of the table by that row's factor. The layer kernel multiplies every row of the
  summed table by its factor (the new layer), writes that times the factor once more (the table the next gather
  reads) and adds the new layer to the running sum. Since block t of every output is the restriction to those rows of
  one function of the whole input arrays, and the 250 blocks cover all 1,000,000 rows, each output array after the
  launch is that function.
-/
import proofs.«167429_j85753317032076_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem offsets_zero : (![0, 0] : Fin 2 → Nat) = fun _ => 0 := funext fun a => by fin_cases a <;> rfl

/-- Every row of a table times that row's entry of a one-column array. -/
def scaleRows (x : S1000000x64.Idx → Elt F .f32) (d2 : S1000000x1.Idx → Elt F .f32) : S1000000x64.Idx → Elt F .f32 :=
  fun i => FloatOps.mulf (x i) (d2 (ix2 (⟨(i 0).val, idx2_lt0 i⟩ : Fin 1000000) (0 : Fin 1)))

/-- A running sum plus a table, entry by entry. -/
def addRows (a x : S1000000x64.Idx → Elt F .f32) : S1000000x64.Idx → Elt F .f32 :=
  fun i => FloatOps.addf (a i) (x i)

theorem scaleRows_apply (x : S1000000x64.Idx → Elt F .f32) (d2 : S1000000x1.Idx → Elt F .f32) (p : Fin 1000000) (q : Fin 64) :
    scaleRows x d2 (ix2 p q) = FloatOps.mulf (x (ix2 p q)) (d2 (ix2 p (0 : Fin 1))) := rfl

theorem addRows_apply (a x : S1000000x64.Idx → Elt F .f32) (i : S1000000x64.Idx) :
    addRows a x i = FloatOps.addf (a i) (x i) := rfl

/-! ## The first launch: the table times the factors -/

/-- The printed index maps of launch 0, decided over the grid: every window's block at point `t` is block row `t`,
    block column 0. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0 :=
  (by decide +kernel : ∀ t : Fin grid0.N, _)

set_option maxHeartbeats 2000000 in
/-- What point `t` of the first launch writes back is block `t` of the table scaled row by row. -/
theorem flushed0_2_eq (c : Dev nD) (t : Fin cfg0.N) :
    (dat0 V c).flushed 2 t = ((cfg0.win 2).blk t).view.read (Elt F)
      (scaleRows (V c (Pipeline.arrRef spec0 0)) (V c (Pipeline.arrRef spec0 1))) := by
  show (cfg0.win 2).cut (grid0.coords t) ((dat0 V c).after 2 t) = _
  rw [after0_2]
  unfold out0_2
  rw [View.canon_unit_zero offsets_zero]
  simp only [View.ld_unit_zero (S := S4000x64) offsets_zero, View.ld_unit_zero (S := S4000x1) offsets_zero]
  unfold k0_pay1
  dsimp only
  simp only [shapeCast_self]
  obtain ⟨e0, e1, e2, e3, e4, e5⟩ := idx_facts0 t
  funext j
  have hb : broadcastTo S4000x64 (iblk0 V c 1 t) broadcasts_S4000x1_S4000x64 j = iblk0 V c 1 t (ix2 (j 0) (0 : Fin 1)) :=
    broadcastTo_apply _ _ j (ix2 (j 0) (0 : Fin 1)) (fun a => by
      match a with
      | ⟨0, _⟩ => rfl
      | ⟨1, _⟩ => rfl)
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 64 + 1 * (j 1).val = win0_2.index t (1 : Fin 2) * 64 + 1 * (j 1).val; omega
  have hc : ((cfg0.win 1).blk t).view.emb (ix2 (j 0) (0 : Fin 1))
      = ix2 (⟨((((cfg0.win 2).blk t).view.emb j) 0).val, idx2_lt0 _⟩ : Fin 1000000) (0 : Fin 1) := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 1 + 1 * 0 = 0; omega
  show FloatOps.mulf (V c (Pipeline.arrRef spec0 0) (((cfg0.win 0).blk t).view.emb j))
      (broadcastTo S4000x64 (iblk0 V c 1 t) broadcasts_S4000x1_S4000x64 j)
    = scaleRows (V c (Pipeline.arrRef spec0 0)) (V c (Pipeline.arrRef spec0 1)) (((cfg0.win 2).blk t).view.emb j)
  rw [hb]
  show FloatOps.mulf (V c (Pipeline.arrRef spec0 0) (((cfg0.win 0).blk t).view.emb j))
      (V c (Pipeline.arrRef spec0 1) (((cfg0.win 1).blk t).view.emb (ix2 (j 0) (0 : Fin 1))))
    = _
  rw [h0, hc]
  rfl

/-- An index of the array is in point `t`'s block of window 2 iff each coordinate is in the block's range. -/
theorem mem_blk0_2 (t : Fin cfg0.N) (i : S1000000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v16).slice (win0_2.rect t)).set ↔ _
  rw [View.set_slice_whole, Rect.mem_set_unit]
  exact Iff.rfl

/-- Row `r` lies in the block of point `r / 4000`: the blocks of window 2 cover the array. -/
theorem covered0_2 (i : S1000000x64.Idx) :
    ∃ t : Fin cfg0.N, (cfg0.win 2).flush t = true ∧ i ∈ ((cfg0.win 2).blk t).view.set := by
  have hi0 : (i 0).val < 1000000 := idx2_lt0 i
  have hi1 : (i 1).val < 64 := idx2_lt1 i
  have ht : (i 0).val / 4000 < 250 := by omega
  obtain ⟨e0, e1, e2, e3, e4, e5⟩ := idx_facts0 (⟨(i 0).val / 4000, ht⟩ : Fin cfg0.N)
  refine ⟨⟨(i 0).val / 4000, ht⟩, flush0_2 _, ?_⟩
  rw [mem_blk0_2]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win0_2.index ⟨(i 0).val / 4000, ht⟩ (1 : Fin 2) * 64 ≤ (i 1).val
      ∧ (i 1).val < win0_2.index ⟨(i 0).val / 4000, ht⟩ (1 : Fin 2) * 64 + 64
    rw [e5]
    omega

/-- The first launch's output array: the table scaled row by row. -/
theorem final0_2 (c : Dev nD) : (dat0 V c).arrAt 2 cfg0.N
    = scaleRows (V c (Pipeline.arrRef spec0 0)) (V c (Pipeline.arrRef spec0 1)) :=
  (dat0 V c).arrAt_eq_of_cover 2 _ (fun t _ => flushed0_2_eq V c t) covered0_2

/-! ## Launch 1: one layer's update -/

/-- The printed index maps of launch 1, decided over the grid: every window's block at point `t` is block row `t`,
    block column 0. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0 :=
  (by decide +kernel : ∀ t : Fin grid1.N, _)

set_option maxHeartbeats 2000000 in
/-- What point `t` of launch 1 writes back through its first output is block `t` of the summed table scaled row by
    row twice. -/
theorem flushed1_3_eq (c : Dev nD) (t : Fin cfg1.N) :
    (dat1 V c).flushed 3 t = ((cfg1.win 3).blk t).view.read (Elt F)
      (scaleRows (scaleRows (V c (Pipeline.arrRef spec1 0)) (V c (Pipeline.arrRef spec1 1))) (V c (Pipeline.arrRef spec1 1))) := by
  show (cfg1.win 3).cut (grid1.coords t) ((dat1 V c).after 3 t) = _
  rw [after1_3]
  unfold out1_3
  rw [View.canon_unit_zero offsets_zero]
  simp only [View.ld_unit_zero (S := S4000x64) offsets_zero, View.ld_unit_zero (S := S4000x1) offsets_zero]
  unfold k1_pay3 k1_pay2 k1_pay1
  dsimp only
  simp only [shapeCast_self]
  obtain ⟨e0, e1, e2, e3, e4, e5, e6, e7, e8, e9⟩ := idx_facts1 t
  funext j
  have hb : broadcastTo S4000x64 (iblk1 V c 1 t) broadcasts_S4000x1_S4000x64 j = iblk1 V c 1 t (ix2 (j 0) (0 : Fin 1)) :=
    broadcastTo_apply _ _ j (ix2 (j 0) (0 : Fin 1)) (fun a => by
      match a with
      | ⟨0, _⟩ => rfl
      | ⟨1, _⟩ => rfl)
  have h0 : ((cfg1.win 0).blk t).view.emb j = ((cfg1.win 3).blk t).view.emb j := by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 64 + 1 * (j 1).val = win1_3.index t (1 : Fin 2) * 64 + 1 * (j 1).val; omega
  have hc : ((cfg1.win 1).blk t).view.emb (ix2 (j 0) (0 : Fin 1))
      = ix2 (⟨((((cfg1.win 3).blk t).view.emb j) 0).val, idx2_lt0 _⟩ : Fin 1000000) (0 : Fin 1) := by
    funext a; apply Fin.ext
    match a with
    | ⟨0, _⟩ => show win1_1.index t (0 : Fin 2) * 4000 + 1 * (j 0).val = win1_3.index t (0 : Fin 2) * 4000 + 1 * (j 0).val; omega
    | ⟨1, _⟩ => show win1_1.index t (1 : Fin 2) * 1 + 1 * 0 = 0; omega
  show FloatOps.mulf (FloatOps.mulf (V c (Pipeline.arrRef spec1 0) (((cfg1.win 0).blk t).view.emb j))
        (broadcastTo S4000x64 (iblk1 V c 1 t) broadcasts_S4000x1_S4000x64 j))
      (broadcastTo S4000x64 (iblk1 V c 1 t) broadcasts_S4000x1_S4000x64 j)
    = scaleRows (scaleRows (V c (Pipeline.arrRef spec1 0)) (V c (Pipeline.arrRef spec1 1))) (V c (Pipeline.arrRef spec1 1))
        (((cfg1.win 3).blk t).view.emb j)
  rw [hb]
  show FloatOps.mulf (FloatOps.mulf (V c (Pipeline.arrRef spec1 0) (((cfg1.win 0).blk t).view.emb j))
        (V c (Pipeline.arrRef spec1 1) (((cfg1.win 1).blk t).view.emb (ix2 (j 0) (0 : Fin 1)))))
      (V c (Pipeline.arrRef spec1 1) (((cfg1.win 1).blk t).view.emb (ix2 (j 0) (0 : Fin 1))))
    = _
  rw [h0, hc]
  rfl

/-- An index of the array is in point `t`'s block of window 3 iff each coordinate is in the block's range. -/
theorem mem_blk1_3 (t : Fin cfg1.N) (i : S1000000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v27_0).slice (win1_3.rect t)).set ↔ _
  rw [View.set_slice_whole, Rect.mem_set_unit]
  exact Iff.rfl

/-- Row `r` lies in the block of point `r / 4000`: the blocks of window 3 cover the array. -/
theorem covered1_3 (i : S1000000x64.Idx) :
    ∃ t : Fin cfg1.N, (cfg1.win 3).flush t = true ∧ i ∈ ((cfg1.win 3).blk t).view.set := by
  have hi0 : (i 0).val < 1000000 := idx2_lt0 i
  have hi1 : (i 1).val < 64 := idx2_lt1 i
  have ht : (i 0).val / 4000 < 250 := by omega
  obtain ⟨e0, e1, e2, e3, e4, e5, e6, e7, e8, e9⟩ := idx_facts1 (⟨(i 0).val / 4000, ht⟩ : Fin cfg1.N)
  refine ⟨⟨(i 0).val / 4000, ht⟩, flush1_3 _, ?_⟩
  rw [mem_blk1_3]
  intro a
  match a with
  | ⟨0, _⟩ =>
    show win1_3.index ⟨(i 0).val / 4000, ht⟩ (0 : Fin 2) * 4000 ≤ (i 0).val
      ∧ (i 0).val < win1_3.index ⟨(i 0).val / 4000, ht⟩ (0 : Fin 2) * 4000 + 4000
    rw [e6]
    show (i 0).val / 4000 * 4000 ≤ (i 0).val ∧ (i 0).val < (i 0).val / 4000 * 4000 + 4000
    omega
  | ⟨1, _⟩ =>
    show win1_3.index ⟨(i 0).val / 4000, ht⟩ (1 : Fin 2) * 64 ≤ (i 1).val
      ∧ (i 1).val < win1_3.index ⟨(i 0).val / 4000, ht⟩ (1 : Fin 2) * 64 + 64
    rw [e7]
    omega

/-- Launch 1's first output array: the summed table scaled row by row twice. -/
theorem final1_3 (c : Dev nD) : (dat1 V c).arrAt 3 cfg1.N
    = scaleRows (scaleRows (V c (Pipeline.arrRef spec1 0)) (V c (Pipeline.arrRef spec1 1))) (V c (Pipeline.arrRef spec1 1)) :=
  (dat1 V c).arrAt_eq_of_cover 3 _ (fun t _ => flushed1_3_eq V c t) covered1_3

set_option maxHeartbeats 2000000 in
/-- What point `t` of launch 1 writes back through its second output is block `t` of the running sum plus the summed
    table scaled row by row. -/
theorem flushed1_4_eq (c : Dev nD) (t : Fin cfg1.N) :
    (dat1 V c).flushed 4 t = ((cfg1.win 4).blk t).view.read (Elt F)
      (addRows (V c (Pipeline.arrRef spec1 2)) (scaleRows (V c (Pipeline.arrRef spec1 0)) (V c (Pipeline.arrRef spec1 1)))) := by
  show (cfg1.win 4).cut (grid1.coords t) ((dat1 V c).after 4 t) = _
  rw [after1_4]
  unfold out1_4
  rw [View.canon_unit_zero offsets_zero]
  simp only [View.ld_unit_zero (S := S4000x64) offsets_zero, View.ld_unit_zero (S := S4000x1) offsets_zero]
  unfold k1_pay4 k1_pay2 k1_pay1
  dsimp only
  simp only [shapeCast_self]
  obtain ⟨e0, e1, e2, e3, e4, e5, e6, e7, e8, e9⟩ := idx_facts1 t
  funext j
  have hb : broadcastTo S4000x64 (iblk1 V c 1 t) broadcasts_S4000x1_S4000x64 j = iblk1 V c 1 t (ix2 (j 0) (0 : Fin 1)) :=
    broadcastTo_apply _ _ j (ix2 (j 0) (0 : Fin 1)) (fun a => by
      match a with
      | ⟨0, _⟩ => rfl
      | ⟨1, _⟩ => rfl)
  have h0 : ((cfg1.win 0).blk t).view.emb j = ((cfg1.win 4).blk t).view.emb j := by
    funext a; apply Fin.ext
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 4000 + 1 * (j 0).val = win1_4.index t (0 : Fin 2) * 4000 + 1 * (j 0).val; omega
    | ⟨1, _⟩ => show win1_2.index t (1 : Fin 2) * 64 + 1 * (j 1).val = win1_4.index t (1 : Fin 2) * 64 + 1 * (j 1).val; omega
  have hc : ((cfg1.win 1).blk t).view.emb (ix2 (j 0) (0 : Fin 1))
      = ix2 (⟨((((cfg1.win 4).blk t).view.emb j) 0).val, idx2_lt0 _⟩ : Fin 1000000) (0 : Fin 1) := by
    funext a; apply Fin.ext
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 1 + 1 * 0 = 0; omega
  show FloatOps.addf (V c (Pipeline.arrRef spec1 2) (((cfg1.win 2).blk t).view.emb j))
      (FloatOps.mulf (V c (Pipeline.arrRef spec1 0) (((cfg1.win 0).blk t).view.emb j))
        (broadcastTo S4000x64 (iblk1 V c 1 t) broadcasts_S4000x1_S4000x64 j))
    = addRows (V c (Pipeline.arrRef spec1 2)) (scaleRows (V c (Pipeline.arrRef spec1 0)) (V c (Pipeline.arrRef spec1 1)))
        (((cfg1.win 4).blk t).view.emb j)
  rw [hb]
  show FloatOps.addf (V c (Pipeline.arrRef spec1 2) (((cfg1.win 2).blk t).view.emb j))
      (FloatOps.mulf (V c (Pipeline.arrRef spec1 0) (((cfg1.win 0).blk t).view.emb j))
        (V c (Pipeline.arrRef spec1 1) (((cfg1.win 1).blk t).view.emb (ix2 (j 0) (0 : Fin 1)))))
    = _
  rw [h0, h2, hc]
  rfl

/-- An index of the array is in point `t`'s block of window 4 iff each coordinate is in the block's range. -/
theorem mem_blk1_4 (t : Fin cfg1.N) (i : S1000000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v27_1).slice (win1_4.rect t)).set ↔ _
  rw [View.set_slice_whole, Rect.mem_set_unit]
  exact Iff.rfl

/-- Row `r` lies in the block of point `r / 4000`: the blocks of window 4 cover the array. -/
theorem covered1_4 (i : S1000000x64.Idx) :
    ∃ t : Fin cfg1.N, (cfg1.win 4).flush t = true ∧ i ∈ ((cfg1.win 4).blk t).view.set := by
  have hi0 : (i 0).val < 1000000 := idx2_lt0 i
  have hi1 : (i 1).val < 64 := idx2_lt1 i
  have ht : (i 0).val / 4000 < 250 := by omega
  obtain ⟨e0, e1, e2, e3, e4, e5, e6, e7, e8, e9⟩ := idx_facts1 (⟨(i 0).val / 4000, ht⟩ : Fin cfg1.N)
  refine ⟨⟨(i 0).val / 4000, ht⟩, flush1_4 _, ?_⟩
  rw [mem_blk1_4]
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    rw [e8]
    show (i 0).val / 4000 * 4000 ≤ (i 0).val ∧ (i 0).val < (i 0).val / 4000 * 4000 + 4000
    omega
  | ⟨1, _⟩ =>
    show win1_4.index ⟨(i 0).val / 4000, ht⟩ (1 : Fin 2) * 64 ≤ (i 1).val
      ∧ (i 1).val < win1_4.index ⟨(i 0).val / 4000, ht⟩ (1 : Fin 2) * 64 + 64
    rw [e9]
    omega

/-- Launch 1's second output array: the running sum plus the summed table scaled row by row. -/
theorem final1_4 (c : Dev nD) : (dat1 V c).arrAt 4 cfg1.N
    = addRows (V c (Pipeline.arrRef spec1 2)) (scaleRows (V c (Pipeline.arrRef spec1 0)) (V c (Pipeline.arrRef spec1 1))) :=
  (dat1 V c).arrAt_eq_of_cover 4 _ (fun t _ => flushed1_4_eq V c t) covered1_4

/-! ## Launch 2: one layer's update -/

/-- The printed index maps of launch 2, decided over the grid: every window's block at point `t` is block row `t`,
    block column 0. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0 :=
  (by decide +kernel : ∀ t : Fin grid2.N, _)

set_option maxHeartbeats 2000000 in
/-- What point `t` of launch 2 writes back through its first output is block `t` of the summed table scaled row by
    row twice. -/
theorem flushed2_3_eq (c : Dev nD) (t : Fin cfg2.N) :
    (dat2 V c).flushed 3 t = ((cfg2.win 3).blk t).view.read (Elt F)
      (scaleRows (scaleRows (V c (Pipeline.arrRef spec2 0)) (V c (Pipeline.arrRef spec2 1))) (V c (Pipeline.arrRef spec2 1))) := by
  show (cfg2.win 3).cut (grid2.coords t) ((dat2 V c).after 3 t) = _
  rw [after2_3]
  unfold out2_3
  rw [View.canon_unit_zero offsets_zero]
  simp only [View.ld_unit_zero (S := S4000x64) offsets_zero, View.ld_unit_zero (S := S4000x1) offsets_zero]
  unfold k2_pay3 k2_pay2 k2_pay1
  dsimp only
  simp only [shapeCast_self]
  obtain ⟨e0, e1, e2, e3, e4, e5, e6, e7, e8, e9⟩ := idx_facts2 t
  funext j
  have hb : broadcastTo S4000x64 (iblk2 V c 1 t) broadcasts_S4000x1_S4000x64 j = iblk2 V c 1 t (ix2 (j 0) (0 : Fin 1)) :=
    broadcastTo_apply _ _ j (ix2 (j 0) (0 : Fin 1)) (fun a => by
      match a with
      | ⟨0, _⟩ => rfl
      | ⟨1, _⟩ => rfl)
  have h0 : ((cfg2.win 0).blk t).view.emb j = ((cfg2.win 3).blk t).view.emb j := by
    funext a; apply Fin.ext
    match a with
    | ⟨0, _⟩ => show win2_0.index t (0 : Fin 2) * 4000 + 1 * (j 0).val = win2_3.index t (0 : Fin 2) * 4000 + 1 * (j 0).val; omega
    | ⟨1, _⟩ => show win2_0.index t (1 : Fin 2) * 64 + 1 * (j 1).val = win2_3.index t (1 : Fin 2) * 64 + 1 * (j 1).val; omega
  have hc : ((cfg2.win 1).blk t).view.emb (ix2 (j 0) (0 : Fin 1))
      = ix2 (⟨((((cfg2.win 3).blk t).view.emb j) 0).val, idx2_lt0 _⟩ : Fin 1000000) (0 : Fin 1) := by
    funext a; apply Fin.ext
    match a with
    | ⟨0, _⟩ => show win2_1.index t (0 : Fin 2) * 4000 + 1 * (j 0).val = win2_3.index t (0 : Fin 2) * 4000 + 1 * (j 0).val; omega
    | ⟨1, _⟩ => show win2_1.index t (1 : Fin 2) * 1 + 1 * 0 = 0; omega
  show FloatOps.mulf (FloatOps.mulf (V c (Pipeline.arrRef spec2 0) (((cfg2.win 0).blk t).view.emb j))
        (broadcastTo S4000x64 (iblk2 V c 1 t) broadcasts_S4000x1_S4000x64 j))
      (broadcastTo S4000x64 (iblk2 V c 1 t) broadcasts_S4000x1_S4000x64 j)
    = scaleRows (scaleRows (V c (Pipeline.arrRef spec2 0)) (V c (Pipeline.arrRef spec2 1))) (V c (Pipeline.arrRef spec2 1))
        (((cfg2.win 3).blk t).view.emb j)
  rw [hb]
  show FloatOps.mulf (FloatOps.mulf (V c (Pipeline.arrRef spec2 0) (((cfg2.win 0).blk t).view.emb j))
        (V c (Pipeline.arrRef spec2 1) (((cfg2.win 1).blk t).view.emb (ix2 (j 0) (0 : Fin 1)))))
      (V c (Pipeline.arrRef spec2 1) (((cfg2.win 1).blk t).view.emb (ix2 (j 0) (0 : Fin 1))))
    = _
  rw [h0, hc]
  rfl

/-- An index of the array is in point `t`'s block of window 3 iff each coordinate is in the block's range. -/
theorem mem_blk2_3 (t : Fin cfg2.N) (i : S1000000x64.Idx) :
    i ∈ ((cfg2.win 3).blk t).view.set ↔ ∀ a : Fin 2, win2_3.index t a * S4000x64.size a ≤ (i a).val
      ∧ (i a).val < win2_3.index t a * S4000x64.size a + S4000x64.size a := by
  show i ∈ ((View.whole main_v38_0).slice (win2_3.rect t)).set ↔ _
  rw [View.set_slice_whole, Rect.mem_set_unit]
  exact Iff.rfl

/-- Row `r` lies in the block of point `r / 4000`: the blocks of window 3 cover the array. -/
theorem covered2_3 (i : S1000000x64.Idx) :
    ∃ t : Fin cfg2.N, (cfg2.win 3).flush t = true ∧ i ∈ ((cfg2.win 3).blk t).view.set := by
  have hi0 : (i 0).val < 1000000 := idx2_lt0 i
  have hi1 : (i 1).val < 64 := idx2_lt1 i
  have ht : (i 0).val / 4000 < 250 := by omega
  obtain ⟨e0, e1, e2, e3, e4, e5, e6, e7, e8, e9⟩ := idx_facts2 (⟨(i 0).val / 4000, ht⟩ : Fin cfg2.N)
  refine ⟨⟨(i 0).val / 4000, ht⟩, flush2_3 _, ?_⟩
  rw [mem_blk2_3]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e6]
    show (i 0).val / 4000 * 4000 ≤ (i 0).val ∧ (i 0).val < (i 0).val / 4000 * 4000 + 4000
    omega
  | ⟨1, _⟩ =>
    show win2_3.index ⟨(i 0).val / 4000, ht⟩ (1 : Fin 2) * 64 ≤ (i 1).val
      ∧ (i 1).val < win2_3.index ⟨(i 0).val / 4000, ht⟩ (1 : Fin 2) * 64 + 64
    rw [e7]
    omega

/-- Launch 2's first output array: the summed table scaled row by row twice. -/
theorem final2_3 (c : Dev nD) : (dat2 V c).arrAt 3 cfg2.N
    = scaleRows (scaleRows (V c (Pipeline.arrRef spec2 0)) (V c (Pipeline.arrRef spec2 1))) (V c (Pipeline.arrRef spec2 1)) :=
  (dat2 V c).arrAt_eq_of_cover 3 _ (fun t _ => flushed2_3_eq V c t) covered2_3

set_option maxHeartbeats 2000000 in
/-- What point `t` of launch 2 writes back through its second output is block `t` of the running sum plus the summed
    table scaled row by row. -/
theorem flushed2_4_eq (c : Dev nD) (t : Fin cfg2.N) :
    (dat2 V c).flushed 4 t = ((cfg2.win 4).blk t).view.read (Elt F)
      (addRows (V c (Pipeline.arrRef spec2 2)) (scaleRows (V c (Pipeline.arrRef spec2 0)) (V c (Pipeline.arrRef spec2 1)))) := by
  show (cfg2.win 4).cut (grid2.coords t) ((dat2 V c).after 4 t) = _
  rw [after2_4]
  unfold out2_4
  rw [View.canon_unit_zero offsets_zero]
  simp only [View.ld_unit_zero (S := S4000x64) offsets_zero, View.ld_unit_zero (S := S4000x1) offsets_zero]
  unfold k2_pay4 k2_pay2 k2_pay1
  dsimp only
  simp only [shapeCast_self]
  obtain ⟨e0, e1, e2, e3, e4, e5, e6, e7, e8, e9⟩ := idx_facts2 t
  funext j
  have hb : broadcastTo S4000x64 (iblk2 V c 1 t) broadcasts_S4000x1_S4000x64 j = iblk2 V c 1 t (ix2 (j 0) (0 : Fin 1)) :=
    broadcastTo_apply _ _ j (ix2 (j 0) (0 : Fin 1)) (fun a => by
      match a with
      | ⟨0, _⟩ => rfl
      | ⟨1, _⟩ => rfl)
  have h0 : ((cfg2.win 0).blk t).view.emb j = ((cfg2.win 4).blk t).view.emb j := by
    funext a; apply Fin.ext
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 64 + 1 * (j 1).val = win2_4.index t (1 : Fin 2) * 64 + 1 * (j 1).val; omega
  have h2 : ((cfg2.win 2).blk t).view.emb j = ((cfg2.win 4).blk t).view.emb j := by
    funext a; apply Fin.ext
    match a with
    | ⟨0, _⟩ => show win2_2.index t (0 : Fin 2) * 4000 + 1 * (j 0).val = win2_4.index t (0 : Fin 2) * 4000 + 1 * (j 0).val; omega
    | ⟨1, _⟩ => show win2_2.index t (1 : Fin 2) * 64 + 1 * (j 1).val = win2_4.index t (1 : Fin 2) * 64 + 1 * (j 1).val; omega
  have hc : ((cfg2.win 1).blk t).view.emb (ix2 (j 0) (0 : Fin 1))
      = ix2 (⟨((((cfg2.win 4).blk t).view.emb j) 0).val, idx2_lt0 _⟩ : Fin 1000000) (0 : Fin 1) := by
    funext a; apply Fin.ext
    match a with
    | ⟨0, _⟩ => show win2_1.index t (0 : Fin 2) * 4000 + 1 * (j 0).val = win2_4.index t (0 : Fin 2) * 4000 + 1 * (j 0).val; omega
    | ⟨1, _⟩ => show win2_1.index t (1 : Fin 2) * 1 + 1 * 0 = 0; omega
  show FloatOps.addf (V c (Pipeline.arrRef spec2 2) (((cfg2.win 2).blk t).view.emb j))
      (FloatOps.mulf (V c (Pipeline.arrRef spec2 0) (((cfg2.win 0).blk t).view.emb j))
        (broadcastTo S4000x64 (iblk2 V c 1 t) broadcasts_S4000x1_S4000x64 j))
    = addRows (V c (Pipeline.arrRef spec2 2)) (scaleRows (V c (Pipeline.arrRef spec2 0)) (V c (Pipeline.arrRef spec2 1)))
        (((cfg2.win 4).blk t).view.emb j)
  rw [hb]
  show FloatOps.addf (V c (Pipeline.arrRef spec2 2) (((cfg2.win 2).blk t).view.emb j))
      (FloatOps.mulf (V c (Pipeline.arrRef spec2 0) (((cfg2.win 0).blk t).view.emb j))
        (V c (Pipeline.arrRef spec2 1) (((cfg2.win 1).blk t).view.emb (ix2 (j 0) (0 : Fin 1)))))
    = _
  rw [h0, h2, hc]
  rfl

/-- An index of the array is in point `t`'s block of window 4 iff each coordinate is in the block's range. -/
theorem mem_blk2_4 (t : Fin cfg2.N) (i : S1000000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v38_1).slice (win2_4.rect t)).set ↔ _
  rw [View.set_slice_whole, Rect.mem_set_unit]
  exact Iff.rfl

/-- Row `r` lies in the block of point `r / 4000`: the blocks of window 4 cover the array. -/
theorem covered2_4 (i : S1000000x64.Idx) :
    ∃ t : Fin cfg2.N, (cfg2.win 4).flush t = true ∧ i ∈ ((cfg2.win 4).blk t).view.set := by
  have hi0 : (i 0).val < 1000000 := idx2_lt0 i
  have hi1 : (i 1).val < 64 := idx2_lt1 i
  have ht : (i 0).val / 4000 < 250 := by omega
  obtain ⟨e0, e1, e2, e3, e4, e5, e6, e7, e8, e9⟩ := idx_facts2 (⟨(i 0).val / 4000, ht⟩ : Fin cfg2.N)
  refine ⟨⟨(i 0).val / 4000, ht⟩, flush2_4 _, ?_⟩
  rw [mem_blk2_4]
  intro a
  match a with
  | ⟨0, _⟩ =>
    show win2_4.index ⟨(i 0).val / 4000, ht⟩ (0 : Fin 2) * 4000 ≤ (i 0).val
      ∧ (i 0).val < win2_4.index ⟨(i 0).val / 4000, ht⟩ (0 : Fin 2) * 4000 + 4000
    rw [e8]
    show (i 0).val / 4000 * 4000 ≤ (i 0).val ∧ (i 0).val < (i 0).val / 4000 * 4000 + 4000
    omega
  | ⟨1, _⟩ =>
    show win2_4.index ⟨(i 0).val / 4000, ht⟩ (1 : Fin 2) * 64 ≤ (i 1).val
      ∧ (i 1).val < win2_4.index ⟨(i 0).val / 4000, ht⟩ (1 : Fin 2) * 64 + 64
    rw [e9]
    omega

/-- Launch 2's second output array: the running sum plus the summed table scaled row by row. -/
theorem final2_4 (c : Dev nD) : (dat2 V c).arrAt 4 cfg2.N
    = addRows (V c (Pipeline.arrRef spec2 2)) (scaleRows (V c (Pipeline.arrRef spec2 0)) (V c (Pipeline.arrRef spec2 1))) :=
  (dat2 V c).arrAt_eq_of_cover 4 _ (fun t _ => flushed2_4_eq V c t) covered2_4

/-! ## Launch 3: one layer's update -/

/-- The printed index maps of launch 3, decided over the grid: every window's block at point `t` is block row `t`,
    block column 0. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0 :=
  (by decide +kernel : ∀ t : Fin grid3.N, _)

set_option maxHeartbeats 2000000 in
/-- What point `t` of launch 3 writes back through its second output is block `t` of the running sum plus the summed
    table scaled row by row. -/
theorem flushed3_4_eq (c : Dev nD) (t : Fin cfg3.N) :
    (dat3 V c).flushed 4 t = ((cfg3.win 4).blk t).view.read (Elt F)
      (addRows (V c (Pipeline.arrRef spec3 2)) (scaleRows (V c (Pipeline.arrRef spec3 0)) (V c (Pipeline.arrRef spec3 1)))) := by
  show (cfg3.win 4).cut (grid3.coords t) ((dat3 V c).after 4 t) = _
  rw [after3_4]
  unfold out3_4
  rw [View.canon_unit_zero offsets_zero]
  simp only [View.ld_unit_zero (S := S4000x64) offsets_zero, View.ld_unit_zero (S := S4000x1) offsets_zero]
  unfold k3_pay4 k3_pay2 k3_pay1
  dsimp only
  simp only [shapeCast_self]
  obtain ⟨e0, e1, e2, e3, e4, e5, e6, e7, e8, e9⟩ := idx_facts3 t
  funext j
  have hb : broadcastTo S4000x64 (iblk3 V c 1 t) broadcasts_S4000x1_S4000x64 j = iblk3 V c 1 t (ix2 (j 0) (0 : Fin 1)) :=
    broadcastTo_apply _ _ j (ix2 (j 0) (0 : Fin 1)) (fun a => by
      match a with
      | ⟨0, _⟩ => rfl
      | ⟨1, _⟩ => rfl)
  have h0 : ((cfg3.win 0).blk t).view.emb j = ((cfg3.win 4).blk t).view.emb j := by
    funext a; apply Fin.ext
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 4000 + 1 * (j 0).val = win3_4.index t (0 : Fin 2) * 4000 + 1 * (j 0).val; omega
    | ⟨1, _⟩ => show win3_2.index t (1 : Fin 2) * 64 + 1 * (j 1).val = win3_4.index t (1 : Fin 2) * 64 + 1 * (j 1).val; omega
  have hc : ((cfg3.win 1).blk t).view.emb (ix2 (j 0) (0 : Fin 1))
      = ix2 (⟨((((cfg3.win 4).blk t).view.emb j) 0).val, idx2_lt0 _⟩ : Fin 1000000) (0 : Fin 1) := by
    funext a; apply Fin.ext
    match a with
    | ⟨0, _⟩ => show win3_1.index t (0 : Fin 2) * 4000 + 1 * (j 0).val = win3_4.index t (0 : Fin 2) * 4000 + 1 * (j 0).val; omega
    | ⟨1, _⟩ => show win3_1.index t (1 : Fin 2) * 1 + 1 * 0 = 0; omega
  show FloatOps.addf (V c (Pipeline.arrRef spec3 2) (((cfg3.win 2).blk t).view.emb j))
      (FloatOps.mulf (V c (Pipeline.arrRef spec3 0) (((cfg3.win 0).blk t).view.emb j))
        (broadcastTo S4000x64 (iblk3 V c 1 t) broadcasts_S4000x1_S4000x64 j))
    = addRows (V c (Pipeline.arrRef spec3 2)) (scaleRows (V c (Pipeline.arrRef spec3 0)) (V c (Pipeline.arrRef spec3 1)))
        (((cfg3.win 4).blk t).view.emb j)
  rw [hb]
  show FloatOps.addf (V c (Pipeline.arrRef spec3 2) (((cfg3.win 2).blk t).view.emb j))
      (FloatOps.mulf (V c (Pipeline.arrRef spec3 0) (((cfg3.win 0).blk t).view.emb j))
        (V c (Pipeline.arrRef spec3 1) (((cfg3.win 1).blk t).view.emb (ix2 (j 0) (0 : Fin 1)))))
    = _
  rw [h0, h2, hc]
  rfl

/-- An index of the array is in point `t`'s block of window 4 iff each coordinate is in the block's range. -/
theorem mem_blk3_4 (t : Fin cfg3.N) (i : S1000000x64.Idx) :
    i ∈ ((cfg3.win 4).blk t).view.set ↔ ∀ a : Fin 2, win3_4.index t a * S4000x64.size a ≤ (i a).val
      ∧ (i a).val < win3_4.index t a * S4000x64.size a + S4000x64.size a := by
  show i ∈ ((View.whole main_v49_1).slice (win3_4.rect t)).set ↔ _
  rw [View.set_slice_whole, Rect.mem_set_unit]
  exact Iff.rfl

/-- Row `r` lies in the block of point `r / 4000`: the blocks of window 4 cover the array. -/
theorem covered3_4 (i : S1000000x64.Idx) :
    ∃ t : Fin cfg3.N, (cfg3.win 4).flush t = true ∧ i ∈ ((cfg3.win 4).blk t).view.set := by
  have hi0 : (i 0).val < 1000000 := idx2_lt0 i
  have hi1 : (i 1).val < 64 := idx2_lt1 i
  have ht : (i 0).val / 4000 < 250 := by omega
  obtain ⟨e0, e1, e2, e3, e4, e5, e6, e7, e8, e9⟩ := idx_facts3 (⟨(i 0).val / 4000, ht⟩ : Fin cfg3.N)
  refine ⟨⟨(i 0).val / 4000, ht⟩, flush3_4 _, ?_⟩
  rw [mem_blk3_4]
  intro a
  match a with
  | ⟨0, _⟩ =>
    show win3_4.index ⟨(i 0).val / 4000, ht⟩ (0 : Fin 2) * 4000 ≤ (i 0).val
      ∧ (i 0).val < win3_4.index ⟨(i 0).val / 4000, ht⟩ (0 : Fin 2) * 4000 + 4000
    rw [e8]
    show (i 0).val / 4000 * 4000 ≤ (i 0).val ∧ (i 0).val < (i 0).val / 4000 * 4000 + 4000
    omega
  | ⟨1, _⟩ =>
    show win3_4.index ⟨(i 0).val / 4000, ht⟩ (1 : Fin 2) * 64 ≤ (i 1).val
      ∧ (i 1).val < win3_4.index ⟨(i 0).val / 4000, ht⟩ (1 : Fin 2) * 64 + 64
    rw [e9]
    omega

/-- Launch 3's second output array: the running sum plus the summed table scaled row by row. -/
theorem final3_4 (c : Dev nD) : (dat3 V c).arrAt 4 cfg3.N
    = addRows (V c (Pipeline.arrRef spec3 2)) (scaleRows (V c (Pipeline.arrRef spec3 0)) (V c (Pipeline.arrRef spec3 1))) :=
  (dat3 V c).arrAt_eq_of_cover 4 _ (fun t _ => flushed3_4_eq V c t) covered3_4

end Cert.KernelIdeal.Blocks

end
-- ==== Proof.KernelValue.lean ====
/-
  The kernel program's two results as one function of its arguments.

  The program keeps a table of 1,000,000 rows of 64 entries. The first stretch of host operations builds the edge lists
  (landing nodes, source nodes), the column of normalisation factors and the initial table from the arguments; the
  first launch scales the table's rows by the factors. Then, three times: a host stretch gathers the scaled table's
  rows at the source nodes and sums them onto the landing nodes, and a launch scales the sums by the factors (the new
  layer), scales that once more (for the next gather) and adds the new layer to the running sum. The last stretch
  takes a quarter of the running sum and cuts it into the two results. Reading the boundaries in order gives the
  running sum as the initial table plus three layers, each layer "scale, gather, sum, scale" of the one before.
-/
import proofs.«167429_j85753317032076_2_alg».proof.Proof.KernelHops
import proofs.«167429_j85753317032076_2_alg».proof.Proof.KernelBlocks

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.KernelIdeal.Hops Cert.KernelIdeal.Blocks

variable {F : FTy → Type} [FloatOps F]
variable (m : (ℓ : Loc nD τ sig) → Buf (Elt F) ℓ) (ρ : Dev nD → PrngReg)

/-- One layer: scale the rows by the factors, gather and sum along the edges, scale again. -/
def layer (rows cols : IVec S4000000 32) (d2 : FVec F S1000000x1 .f32) (y : FVec F S1000000x64 .f32) :
    FVec F S1000000x64 .f32 :=
  scaleRows (aggregate rows cols (scaleRows y d2)) d2

/-- The initial table plus three layers. -/
def accumulated (rows cols : IVec S4000000 32) (d2 : FVec F S1000000x1 .f32) (x0 : FVec F S1000000x64 .f32) :
    FVec F S1000000x64 .f32 :=
  addRows (addRows (addRows x0 (layer rows cols d2 x0)) (layer rows cols d2 (layer rows cols d2 x0)))
    (layer rows cols d2 (layer rows cols d2 (layer rows cols d2 x0)))

/-! ## The boundaries in order (edge lists, factors and initial table as the first stretch left them) -/

theorem table0 (c : Dev nD) : W2 m ρ c (Proc.devRef .tc main_v16) = scaleRows (W1 m ρ c (Proc.devRef .tc main_v15)) (W1 m ρ c (Proc.devRef .tc main_v14)) :=
  (W2_arr m ρ c 2).trans (final0_2 (V1 m ρ) c)

theorem summed1 (c : Dev nD) : W3 m ρ c (Proc.devRef .tc main_v26)
    = aggregate (W1 m ρ c (Proc.devRef .tc main_v2)) (W1 m ρ c (Proc.devRef .tc main_v5)) (scaleRows (W1 m ρ c (Proc.devRef .tc main_v15)) (W1 m ρ c (Proc.devRef .tc main_v14))) := by
  rw [sum1 m ρ c, rows_W2 m ρ c, cols_W2 m ρ c, table0 m ρ c]

theorem table1 (c : Dev nD) : W4 m ρ c (Proc.devRef .tc main_v27_0)
    = scaleRows (layer (W1 m ρ c (Proc.devRef .tc main_v2)) (W1 m ρ c (Proc.devRef .tc main_v5)) (W1 m ρ c (Proc.devRef .tc main_v14)) (W1 m ρ c (Proc.devRef .tc main_v15))) (W1 m ρ c (Proc.devRef .tc main_v14)) := by
  have h := (W4_arr m ρ c 3).trans (final1_3 (V3 m ρ) c)
  have e0 : V3 m ρ c (Pipeline.arrRef spec1 0) = _ := summed1 m ρ c
  have e1 : V3 m ρ c (Pipeline.arrRef spec1 1) = _ := fact_W3 m ρ c
  rw [e0, e1] at h
  exact h

theorem running1 (c : Dev nD) : W4 m ρ c (Proc.devRef .tc main_v27_1)
    = addRows (W1 m ρ c (Proc.devRef .tc main_v15)) (layer (W1 m ρ c (Proc.devRef .tc main_v2)) (W1 m ρ c (Proc.devRef .tc main_v5)) (W1 m ρ c (Proc.devRef .tc main_v14)) (W1 m ρ c (Proc.devRef .tc main_v15))) := by
  have h := (W4_arr m ρ c 4).trans (final1_4 (V3 m ρ) c)
  have e0 : V3 m ρ c (Pipeline.arrRef spec1 0) = _ := summed1 m ρ c
  have e1 : V3 m ρ c (Pipeline.arrRef spec1 1) = _ := fact_W3 m ρ c
  have e2 : V3 m ρ c (Pipeline.arrRef spec1 2) = _ := init_W3 m ρ c
  rw [e0, e1, e2] at h
  exact h

theorem summed2 (c : Dev nD) : W5 m ρ c (Proc.devRef .tc main_v37)
    = aggregate (W1 m ρ c (Proc.devRef .tc main_v2)) (W1 m ρ c (Proc.devRef .tc main_v5)) (scaleRows (layer (W1 m ρ c (Proc.devRef .tc main_v2)) (W1 m ρ c (Proc.devRef .tc main_v5)) (W1 m ρ c (Proc.devRef .tc main_v14)) (W1 m ρ c (Proc.devRef .tc main_v15))) (W1 m ρ c (Proc.devRef .tc main_v14))) := by
  rw [sum2 m ρ c, rows_W4 m ρ c, cols_W4 m ρ c, table1 m ρ c]

theorem table2 (c : Dev nD) : W6 m ρ c (Proc.devRef .tc main_v38_0)
    = scaleRows (layer (W1 m ρ c (Proc.devRef .tc main_v2)) (W1 m ρ c (Proc.devRef .tc main_v5)) (W1 m ρ c (Proc.devRef .tc main_v14)) (layer (W1 m ρ c (Proc.devRef .tc main_v2)) (W1 m ρ c (Proc.devRef .tc main_v5)) (W1 m ρ c (Proc.devRef .tc main_v14)) (W1 m ρ c (Proc.devRef .tc main_v15)))) (W1 m ρ c (Proc.devRef .tc main_v14)) := by
  have h := (W6_arr m ρ c 3).trans (final2_3 (V5 m ρ) c)
  have e0 : V5 m ρ c (Pipeline.arrRef spec2 0) = _ := summed2 m ρ c
  have e1 : V5 m ρ c (Pipeline.arrRef spec2 1) = _ := fact_W5 m ρ c
  rw [e0, e1] at h
  exact h

theorem running2 (c : Dev nD) : W6 m ρ c (Proc.devRef .tc main_v38_1)
    = addRows (addRows (W1 m ρ c (Proc.devRef .tc main_v15)) (layer (W1 m ρ c (Proc.devRef .tc main_v2)) (W1 m ρ c (Proc.devRef .tc main_v5)) (W1 m ρ c (Proc.devRef .tc main_v14)) (W1 m ρ c (Proc.devRef .tc main_v15))))
        (layer (W1 m ρ c (Proc.devRef .tc main_v2)) (W1 m ρ c (Proc.devRef .tc main_v5)) (W1 m ρ c (Proc.devRef .tc main_v14)) (layer (W1 m ρ c (Proc.devRef .tc main_v2)) (W1 m ρ c (Proc.devRef .tc main_v5)) (W1 m ρ c (Proc.devRef .tc main_v14)) (W1 m ρ c (Proc.devRef .tc main_v15)))) := by
  have h := (W6_arr m ρ c 4).trans (final2_4 (V5 m ρ) c)
  have e0 : V5 m ρ c (Pipeline.arrRef spec2 0) = _ := summed2 m ρ c
  have e1 : V5 m ρ c (Pipeline.arrRef spec2 1) = _ := fact_W5 m ρ c
  have e2 : V5 m ρ c (Pipeline.arrRef spec2 2) = _ := (hop2_v27_1 m ρ c).trans (running1 m ρ c)
  rw [e0, e1, e2] at h
  exact h

theorem summed3 (c : Dev nD) : W7 m ρ c (Proc.devRef .tc main_v48)
    = aggregate (W1 m ρ c (Proc.devRef .tc main_v2)) (W1 m ρ c (Proc.devRef .tc main_v5))
        (scaleRows (layer (W1 m ρ c (Proc.devRef .tc main_v2)) (W1 m ρ c (Proc.devRef .tc main_v5)) (W1 m ρ c (Proc.devRef .tc main_v14)) (layer (W1 m ρ c (Proc.devRef .tc main_v2)) (W1 m ρ c (Proc.devRef .tc main_v5)) (W1 m ρ c (Proc.devRef .tc main_v14)) (W1 m ρ c (Proc.devRef .tc main_v15)))) (W1 m ρ c (Proc.devRef .tc main_v14))) := by
  rw [sum3 m ρ c, rows_W6 m ρ c, cols_W6 m ρ c, table2 m ρ c]

/-- The running sum after the last launch: the initial table plus three layers. -/
theorem running3 (c : Dev nD) : W8 m ρ c (Proc.devRef .tc main_v49_1)
    = accumulated (W1 m ρ c (Proc.devRef .tc main_v2)) (W1 m ρ c (Proc.devRef .tc main_v5)) (W1 m ρ c (Proc.devRef .tc main_v14)) (W1 m ρ c (Proc.devRef .tc main_v15)) := by
  have h := (W8_arr m ρ c 4).trans (final3_4 (V7 m ρ) c)
  have e0 : V7 m ρ c (Pipeline.arrRef spec3 0) = _ := summed3 m ρ c
  have e1 : V7 m ρ c (Pipeline.arrRef spec3 1) = _ := fact_W7 m ρ c
  have e2 : V7 m ρ c (Pipeline.arrRef spec3 2) = _ := (hop3_v38_1 m ρ c).trans (running2 m ρ c)
  rw [e0, e1, e2] at h
  exact h

/-! ## The first stretch: edge lists, factors and initial table from the arguments -/

/-- The landing nodes: the first index list, then the second shifted by the number of first-kind nodes. -/
def rowsOf (a2 a3 : IVec S2000000 32) : IVec S4000000 32 :=
  concatenate S4000000 0 [⟨S2000000, a2⟩, ⟨S2000000, addi a3 (broadcastInDim S2000000 ![] bcast_S_S2000000 (constantI S_ 32 600000#32))⟩]
    concatenates_S2000000_S2000000_S4000000_d0

/-- The source nodes: the same two lists the other way round. -/
def colsOf (a2 a3 : IVec S2000000 32) : IVec S4000000 32 :=
  concatenate S4000000 0 [⟨S2000000, addi a3 (broadcastInDim S2000000 ![] bcast_S_S2000000 (constantI S_ 32 600000#32))⟩, ⟨S2000000, a2⟩]
    concatenates_S2000000_S2000000_S4000000_d0

/-- The normalisation factors: (degree + offset) to the power, the degree a sum of ones along the landing nodes. -/
def factorsOf (a2 a3 : IVec S2000000 32) : FVec F S1000000 .f32 :=
  Host.powf (addf (Host.scatterAdd scatter_S1000000_S4000000x1_S4000000_n_0_0_1
      (broadcastInDim S1000000 ![] bcast_S_S1000000 (constant S_ .f32 0x00000000#32))
      (rowsI (rowsOf a2 a3))
      (broadcastInDim S4000000 ![] bcast_S_S4000000 (constant S_ .f32 0x3F800000#32)))
    (broadcastInDim S1000000 ![] bcast_S_S1000000 (constant S_ .f32 0x322BCC77#32)))
    (broadcastInDim S1000000 ![] bcast_S_S1000000 (constant S_ .f32 0xBF000000#32))

/-- The factors as a one-column array. -/
def factorColumnOf (a2 a3 : IVec S2000000 32) : FVec F S1000000x1 .f32 :=
  broadcastInDim S1000000x1 ![0] bcast_S1000000_S1000000x1_0 (factorsOf a2 a3)

/-- The initial table: the two embedding tables one above the other. -/
def tableOf (a0 : FVec F S600000x64 .f32) (a1 : FVec F S400000x64 .f32) : FVec F S1000000x64 .f32 :=
  concatenate S1000000x64 0 [⟨S600000x64, a0⟩, ⟨S400000x64, a1⟩] concatenates_S600000x64_S400000x64_S1000000x64_d0

theorem rows_eq (c : Dev nD) : W1 m ρ c (Proc.devRef .tc main_v2)
    = rowsOf (m ((c.tc : Thread nD τ).loc main_arg2)) (m ((c.tc : Thread nD τ).loc main_arg3)) := by
  show StableHlo.after hostOps0 (W0 m ρ c) (Proc.devRef .tc main_v2) = _
  after_results <;> rfl

theorem cols_eq (c : Dev nD) : W1 m ρ c (Proc.devRef .tc main_v5)
    = colsOf (m ((c.tc : Thread nD τ).loc main_arg2)) (m ((c.tc : Thread nD τ).loc main_arg3)) := by
  show StableHlo.after hostOps0 (W0 m ρ c) (Proc.devRef .tc main_v5) = _
  after_results <;> rfl

theorem factors_eq (c : Dev nD) : W1 m ρ c (Proc.devRef .tc main_v14)
    = factorColumnOf (m ((c.tc : Thread nD τ).loc main_arg2)) (m ((c.tc : Thread nD τ).loc main_arg3)) := by
  show StableHlo.after hostOps0 (W0 m ρ c) (Proc.devRef .tc main_v14) = _
  after_results <;> rfl

theorem table_eq (c : Dev nD) : W1 m ρ c (Proc.devRef .tc main_v15)
    = tableOf (m ((c.tc : Thread nD τ).loc main_arg0)) (m ((c.tc : Thread nD τ).loc main_arg1)) := by
  show StableHlo.after hostOps0 (W0 m ρ c) (Proc.devRef .tc main_v15) = _
  after_results <;> rfl

/-! ## The results -/

/-- The whole table the two results are cut from: a quarter of the initial table plus three layers. -/
def resultTable (a0 : FVec F S600000x64 .f32) (a1 : FVec F S400000x64 .f32) (a2 a3 : IVec S2000000 32) :
    FVec F S1000000x64 .f32 :=
  mulf (accumulated (rowsOf a2 a3) (colsOf a2 a3) (factorColumnOf a2 a3) (tableOf a0 a1))
    (broadcastInDim S1000000x64 ![] bcast_S_S1000000x64 (constant S_ .f32 0x3E800000#32))

theorem users_eq (c : Dev nD) : W9 m ρ c (Proc.devRef .tc main_v52)
    = extractStridedSlice S600000x64 ![0, 0]
        (resultTable (m ((c.tc : Thread nD τ).loc main_arg0)) (m ((c.tc : Thread nD τ).loc main_arg1))
          (m ((c.tc : Thread nD τ).loc main_arg2)) (m ((c.tc : Thread nD τ).loc main_arg3)))
        slices_S1000000x64_S600000x64_0_0 := by
  rw [out_users m ρ c, running3 m ρ c, rows_eq m ρ c, cols_eq m ρ c, factors_eq m ρ c, table_eq m ρ c]
  rfl

theorem items_eq (c : Dev nD) : W9 m ρ c (Proc.devRef .tc main_v53)
    = extractStridedSlice S400000x64 ![600000, 0]
        (resultTable (m ((c.tc : Thread nD τ).loc main_arg0)) (m ((c.tc : Thread nD τ).loc main_arg1))
          (m ((c.tc : Thread nD τ).loc main_arg2)) (m ((c.tc : Thread nD τ).loc main_arg3)))
        slices_S1000000x64_S400000x64_600000_0 := by
  rw [out_items m ρ c, running3 m ρ c, rows_eq m ρ c, cols_eq m ρ c, factors_eq m ρ c, table_eq m ρ c]
  rfl

end Cert.KernelIdeal.Chain

end
-- ==== Proof.RefValue.lean ====
/-
  The reference program's two results as one function of its arguments.

  The reference builds the same edge lists, normalisation factors and initial table as the kernel program. It keeps a
  weight per edge — the factor at the edge's landing node (read through a second, wrapped copy of the landing list)
  times the factor at its source node — and computes each layer from the one before by gathering the rows at the
  source nodes, multiplying every gathered row by its edge's weight, and summing onto the landing nodes. It adds the
  three layers to the initial table, divides by four and cuts the result in two. The generated run states each result
  as one long term of the arguments; here that term is folded into those named pieces.
-/
import proofs.«167429_j85753317032076_2_alg».proof.Proof.Gen.ReferenceIdeal.Run

set_option maxRecDepth 16384

noncomputable section

namespace Cert.ReferenceIdeal.Chain

open Cert.ReferenceIdeal Cert.ReferenceIdeal.Gen Idealize.ShloMosaic Idealize.ShloMosaic.TcCoe Idealize.SL.Sem

variable {F : FTy → Type} [FloatOps F]

/-- The landing nodes: the first index list, then the second shifted by the number of first-kind nodes. -/
def rowsOf (a2 a3 : IVec S2000000 32) : IVec S4000000 32 :=
  concatenate S4000000 0 [⟨S2000000, a2⟩, ⟨S2000000, addi a3 (broadcastInDim S2000000 ![] bcast_S_S2000000 (constantI S_ 32 600000#32))⟩]
    concatenates_S2000000_S2000000_S4000000_d0

/-- The source nodes: the same two lists the other way round. -/
def colsOf (a2 a3 : IVec S2000000 32) : IVec S4000000 32 :=
  concatenate S4000000 0 [⟨S2000000, addi a3 (broadcastInDim S2000000 ![] bcast_S_S2000000 (constantI S_ 32 600000#32))⟩, ⟨S2000000, a2⟩]
    concatenates_S2000000_S2000000_S4000000_d0

/-- A list of nodes as a one-column array. -/
def columnOf (v : IVec S4000000 32) : IVec S4000000x1 32 :=
  broadcastInDim S4000000x1 ![0] bcast_S4000000_S4000000x1_0 v

/-- A list of nodes, a negative index wrapped by the number of nodes, as a one-column array. -/
def wrappedColumnOf (v : IVec S4000000 32) : IVec S4000000x1 32 :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 1000000#32))) v)

/-- The zero table the sums start from. -/
def zeros : FVec F S1000000x64 .f32 :=
  broadcastInDim S1000000x64 ![] bcast_S_S1000000x64 (constant S_ .f32 0x00000000#32)

/-- The normalisation factors: (degree + offset) to the power, the degree a sum of ones along the landing nodes. -/
def factorsOf (a2 a3 : IVec S2000000 32) : FVec F S1000000 .f32 :=
  Host.powf (addf (Host.scatterAdd scatter_S1000000_S4000000x1_S4000000_n_0_0_1
      (broadcastInDim S1000000 ![] bcast_S_S1000000 (constant S_ .f32 0x00000000#32))
      (columnOf (rowsOf a2 a3))
      (broadcastInDim S4000000 ![] bcast_S_S4000000 (constant S_ .f32 0x3F800000#32)))
    (broadcastInDim S1000000 ![] bcast_S_S1000000 (constant S_ .f32 0x322BCC77#32)))
    (broadcastInDim S1000000 ![] bcast_S_S1000000 (constant S_ .f32 0xBF000000#32))

/-- The edge weights repeated along the columns: factor at the landing node (second reading) times factor at the
    source node. -/
def weightsOf (a2 a3 : IVec S2000000 32) : FVec F S4000000x64 .f32 :=
  broadcastInDim S4000000x64 ![0, 1] bcast_S4000000x1_S4000000x64_0_1
    (broadcastInDim S4000000x1 ![0] bcast_S4000000_S4000000x1_0
      (mulf (Host.gather gather_S1000000_S4000000x1_S4000000_n_0_n_n_0_1_1 (factorsOf a2 a3) (wrappedColumnOf (rowsOf a2 a3)))
        (Host.gather gather_S1000000_S4000000x1_S4000000_n_0_n_n_0_1_1 (factorsOf a2 a3) (wrappedColumnOf (colsOf a2 a3)))))

/-- The initial table: the two embedding tables one above the other. -/
def tableOf (a0 : FVec F S600000x64 .f32) (a1 : FVec F S400000x64 .f32) : FVec F S1000000x64 .f32 :=
  concatenate S1000000x64 0 [⟨S600000x64, a0⟩, ⟨S400000x64, a1⟩] concatenates_S600000x64_S400000x64_S1000000x64_d0

/-- One layer: gather at the source nodes, weight every gathered row, sum onto the landing nodes. -/
def layer (a2 a3 : IVec S2000000 32) (y : FVec F S1000000x64 .f32) : FVec F S1000000x64 .f32 :=
  Host.scatterAdd scatter_S1000000x64_S4000000x1_S4000000x64_1_0_0_1 zeros (columnOf (rowsOf a2 a3))
    (mulf (weightsOf a2 a3)
      (Host.gather gather_S1000000x64_S4000000x1_S4000000x64_1_0_n_n_0_1_164 y (wrappedColumnOf (colsOf a2 a3))))

/-- The initial table plus three layers. -/
def accumulated (a0 : FVec F S600000x64 .f32) (a1 : FVec F S400000x64 .f32) (a2 a3 : IVec S2000000 32) :
    FVec F S1000000x64 .f32 :=
  addf (addf (addf (tableOf a0 a1) (layer a2 a3 (tableOf a0 a1))) (layer a2 a3 (layer a2 a3 (tableOf a0 a1))))
    (layer a2 a3 (layer a2 a3 (layer a2 a3 (tableOf a0 a1))))

/-- The whole table the two results are cut from: the accumulated table divided by four. -/
def resultTable (a0 : FVec F S600000x64 .f32) (a1 : FVec F S400000x64 .f32) (a2 a3 : IVec S2000000 32) :
    FVec F S1000000x64 .f32 :=
  Host.divf (accumulated a0 a1 a2 a3) (broadcastInDim S1000000x64 ![] bcast_S_S1000000x64 (constant S_ .f32 0x40800000#32))

set_option maxHeartbeats 4000000 in
theorem users_eq (m : (ℓ : Loc nD τ sig) → Buf (Elt F) ℓ) (c : Dev nD) :
    Cert.ReferenceIdeal.Value.res_main_v74 m c
      = extractStridedSlice S600000x64 ![0, 0]
          (resultTable (m ((c.tc : Thread nD τ).loc main_arg0)) (m ((c.tc : Thread nD τ).loc main_arg1))
            (m ((c.tc : Thread nD τ).loc main_arg2)) (m ((c.tc : Thread nD τ).loc main_arg3)))
          slices_S1000000x64_S600000x64_0_0 := by
  unfold Cert.ReferenceIdeal.Value.res_main_v74
  rfl

set_option maxHeartbeats 4000000 in
theorem items_eq (m : (ℓ : Loc nD τ sig) → Buf (Elt F) ℓ) (c : Dev nD) :
    Cert.ReferenceIdeal.Value.res_main_v75 m c
      = extractStridedSlice S400000x64 ![600000, 0]
          (resultTable (m ((c.tc : Thread nD τ).loc main_arg0)) (m ((c.tc : Thread nD τ).loc main_arg1))
            (m ((c.tc : Thread nD τ).loc main_arg2)) (m ((c.tc : Thread nD τ).loc main_arg3)))
          slices_S1000000x64_S400000x64_600000_0 := by
  unfold Cert.ReferenceIdeal.Value.res_main_v75
  rfl

end Cert.ReferenceIdeal.Chain

end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibRowScatterAdd.lean ====
/-
  A general fact about accumulating rows into a matrix.

  Take an operand with N rows and C columns, a column of R row numbers (an R × 1 integer array) and an R × C array of
  update rows. Scattering with one window axis (the columns), one inserted axis (the rows) and the row number naming
  the row axis adds update row e onto operand row k, where k is the e-th row number read as a signed integer; a row
  number outside 0 … N − 1 drops its update row. On the extended reals the result at (r, c) is therefore the operand's
  entry plus the sum, over the update rows e whose row number is r, of the update entry (e, c). Nothing here depends on
  a particular program.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a whole-row accumulation into an `N × C` operand at an `R × 1` column of row numbers. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window of update entry `(e, c)` starts at the `e`-th row number, read signed. -/
theorem start_row (idx : IVec ⟨2, ![R, 1]⟩ w) (e : Fin R) (c : Fin C) :
    (rowDims N R C wf).start (ix2 e c) idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c) ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem start_col (idx : IVec ⟨2, ![R, 1]⟩ w) (j : (⟨2, ![R, C]⟩ : Shape).Idx) :
    (rowDims N R C wf).start j idx 1 = 0 := by
  unfold ScatterDims.start
  rw [dif_neg (show ¬ (1 : Fin 2) ∈ (rowDims N R C wf).scatterDimsToOperandDims from
    fun h => absurd (List.mem_singleton.mp h) (show ¬ (1 : Fin 2) = 0 by decide))]

/-- The operand's axes that are not inserted: the columns only. -/
theorem sKept_eq : (rowDims N R C wf).sKept = [(1 : Fin 2)] := rfl

/-- The row axis is inserted: no window coordinate. -/
theorem window_row (j : (⟨2, ![R, C]⟩ : Shape).Idx) : (rowDims N R C wf).window j 0 = 0 := by
  unfold ScatterDims.window
  rw [dif_neg (show ¬ (0 : Fin 2) ∈ (rowDims N R C wf).sKept from by
    rw [sKept_eq]; exact fun h => absurd (List.mem_singleton.mp h) (show ¬ (0 : Fin 2) = 1 by decide))]

/-- The column axis carries the update's column. -/
theorem window_col (e : Fin R) (c : Fin C) : (rowDims N R C wf).window (ix2 e c) 1 = c.val := by
  unfold ScatterDims.window
  rw [dif_pos (show (1 : Fin 2) ∈ (rowDims N R C wf).sKept from by
    rw [sKept_eq]; exact List.mem_singleton.mpr rfl)]
  rfl

/-- WHERE AN UPDATE ENTRY LANDS: update entry `(e, c)` lands on operand entry `i` exactly when the `e`-th row number, read
    signed, is `i`'s row and `c` is `i`'s column. (A row number outside the operand lands nowhere.) -/
theorem resultIdx?_eq_some_iff (idx : IVec ⟨2, ![R, 1]⟩ w) (e : Fin R) (c : Fin C) (i : (⟨2, ![N, C]⟩ : Shape).Idx) :
    (rowDims N R C wf).resultIdx? (ix2 e c) idx = some i
      ↔ (idx (ix2 e (0 : Fin 1))).toInt = ((i 0).val : Int) ∧ c.val = (i 1).val := by
  have hs0 := start_row wf idx e c
  have hs1 := start_col wf idx (ix2 e c)
  have hw0 := window_row wf (ix2 e c)
  have hw1 := window_col wf e c
  have hi0 : (i 0).val < N := (i 0).isLt
  have hi1 : (i 1).val < C := (i 1).isLt
  have hc : c.val < C := c.isLt
  unfold ScatterDims.resultIdx?
  split
  · rename_i h
    rw [Option.some.injEq]
    have h0 := h 0
    rw [hs0, hw0] at h0
    constructor
    · intro he
      have e0 : ((rowDims N R C wf).start (ix2 e c) idx 0 + ((rowDims N R C wf).window (ix2 e c) 0 : Nat)).toNat = (i 0).val :=
        congrArg (fun f : (⟨2, ![N, C]⟩ : Shape).Idx => (f 0).val) he
      have e1 : ((rowDims N R C wf).start (ix2 e c) idx 1 + ((rowDims N R C wf).window (ix2 e c) 1 : Nat)).toNat = (i 1).val :=
        congrArg (fun f : (⟨2, ![N, C]⟩ : Shape).Idx => (f 1).val) he
      rw [hs0, hw0] at e0
      rw [hs1, hw1] at e1
      constructor <;> omega
    · rintro ⟨g0, g1⟩
      funext a; apply Fin.ext
      match a with
      | ⟨0, _⟩ =>
        show ((rowDims N R C wf).start (ix2 e c) idx 0 + ((rowDims N R C wf).window (ix2 e c) 0 : Nat)).toNat = (i 0).val
        rw [hs0, hw0]; omega
      | ⟨1, _⟩ =>
        show ((rowDims N R C wf).start (ix2 e c) idx 1 + ((rowDims N R C wf).window (ix2 e c) 1 : Nat)).toNat = (i 1).val
        rw [hs1, hw1]; omega
  · rename_i h
    constructor
    · intro he; cases he
    · rintro ⟨g0, g1⟩
      exfalso; apply h
      intro a
      match a with
      | ⟨0, _⟩ =>
        show 0 ≤ (rowDims N R C wf).start (ix2 e c) idx 0 + ((rowDims N R C wf).window (ix2 e c) 0 : Nat)
          ∧ (rowDims N R C wf).start (ix2 e c) idx 0 + ((rowDims N R C wf).window (ix2 e c) 0 : Nat) < (N : Int)
        rw [hs0, hw0]; omega
      | ⟨1, _⟩ =>
        show 0 ≤ (rowDims N R C wf).start (ix2 e c) idx 1 + ((rowDims N R C wf).window (ix2 e c) 1 : Nat)
          ∧ (rowDims N R C wf).start (ix2 e c) idx 1 + ((rowDims N R C wf).window (ix2 e c) 1 : Nat) < (C : Int)
        rw [hs1, hw1]; omega

/-- THE ACCUMULATED ROWS AT AN ENTRY: the operand's entry plus the sum, over the update rows whose row number is
    `r`, of their entries in column `c`. -/
theorem scatterAdd_row_apply (x : (⟨2, ![N, C]⟩ : Shape).Idx → EReal) (idx : IVec ⟨2, ![R, 1]⟩ w)
    (upd : (⟨2, ![R, C]⟩ : Shape).Idx → EReal) (r : Fin N) (c : Fin C) :
    Ideal.hostScatterAdd (rowDims N R C wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  have hiff : ∀ c' : Fin C, ((rowDims N R C wf).resultIdx? (ix2 e c') idx = some (ix2 r c))
      ↔ ((idx (ix2 e (0 : Fin 1))).toInt = (r.val : Int) ∧ c' = c) := fun c' =>
    (resultIdx?_eq_some_iff wf idx e c' (ix2 r c)).trans (and_congr Iff.rfl Fin.val_inj)
  simp only [hiff]
  by_cases hr : (idx (ix2 e (0 : Fin 1))).toInt = (r.val : Int)
  · simp only [hr, true_and, if_true, Finset.sum_ite_eq', Finset.mem_univ]
  · simp only [hr, false_and, if_false, Finset.sum_const_zero]

/-- The same, spelt as the host's operation at the extended reals. -/
theorem host_scatterAdd_row_apply (x : FVec Ideal ⟨2, ![N, C]⟩ .f32) (idx : IVec ⟨2, ![R, 1]⟩ w)
    (upd : FVec Ideal ⟨2, ![R, C]⟩ .f32) (r : Fin N) (c : Fin C) :
    Host.scatterAdd (F := Ideal) (rowDims N R C wf) x idx upd (ix2 r c)
      = x (ix2 r c) + ∑ e : Fin R, if (idx (ix2 e (0 : Fin 1))).toInt = (r.val : Int) then upd (ix2 e c) else 0 :=
  scatterAdd_row_apply wf x idx upd r c

end Idealize.ShloMosaic.RowScatter

end
-- ==== Proof.LibVectorGather.lean ====
/-
  A general fact about gathering single entries of a vector.

  Take a vector with N entries and a column of R start indices (an R × 1 integer array). Gathering with the one axis
  collapsed, no offset axis, the start index naming that axis and slices of one entry produces a vector with R entries
  whose entry r is the vector's entry k, where k is the r-th start index read as a signed integer and clamped into
  0 … N − 1 (what indexing a vector by an integer array lowers to). Nothing here depends on a particular program.
-/
import Idealize.ShloMosaic.PureOps.Ideal
import Idealize.ShloMosaic.Lib.ValueIdx

noncomputable section

namespace Idealize.ShloMosaic.VectorGather

open Idealize.ShloMosaic Idealize.ShloMosaic.ValueIdx

variable {α : Type}

/-- The dimension numbers of a gather of single entries from a vector of `N` entries at an `R × 1` column of start
    indices. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of a gather of single entries is the vector's entry `k`, `k` the `r`-th start index read signed and
    clamped into `0 … N − 1`. -/
theorem gather_entry_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entryDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entryDims N R wf).start (ix1 r) idx 0 + (entryDims N R wf).batchCoord (ix1 r) 0
        + (entryDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryDims N R wf).startIndexMap from List.mem_singleton.mpr rfl)]
    have hsi : (entryDims N R wf).siIdx (ix1 r) ⟨List.idxOf (0 : Fin 1) (entryDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Idealize.ShloMosaic.VectorGather

end
-- ==== Proof.LayerAlgebra.lean ====
/-
  The algebra of one normalised propagation step, and of three of them accumulated.

  A graph has N nodes and R directed edges; edge e lands on node p when `land e p` holds, and reads its source row at
  node `κ e`. Every node carries a normalisation factor `d p`. One propagation step sends a table x (N rows of C
  entries) to the table whose row p is the sum, over the edges landing on p, of d p · d (κ e) · (row κ e of x).

  Two arrangements of that step are compared. The weighted arrangement multiplies every edge's source row by the edge's
  own weight `d (κ' e) · d (κ e)`, where `κ' e` is the landing node read off the edge a second time, and then sums.
  The scaled arrangement keeps the table multiplied by d beforehand, sums the plain source rows, and multiplies the sum
  by d p afterwards. They agree because a nonnegative extended real below +∞ distributes over a finite sum of
  arbitrary extended reals (infinite entries included), and because `κ' e = p` on the edges that land on p.
-/
import Idealize.ShloMosaic.PureOps.Ideal

noncomputable section

namespace Cert.Propagation

open scoped BigOperators

/-- A nonnegative extended real below `+∞` distributes from the right over a finite sum of extended reals. -/
theorem sum_mul_of_nonneg_ne_top {ι : Type} (s : Finset ι) (f : ι → EReal) {d : EReal} (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

variable {N R C : Nat}

/-- One step in the scaled arrangement, from the table already multiplied by `d`: the plain sum of the source rows
    of the edges landing on `p`, then the factor `d p`. -/
def stepScaled (d : Fin N → EReal) (land : Fin R → Fin N → Prop) [∀ e p, Decidable (land e p)] (κ : Fin R → Fin N)
    (xs : Fin N → Fin C → EReal) : Fin N → Fin C → EReal :=
  fun p q => (0 + ∑ e : Fin R, if land e p then xs (κ e) q else 0) * d p

/-- One step in the weighted arrangement: every landing edge's source row times the edge's weight, summed. -/
def stepWeighted (d : Fin N → EReal) (land : Fin R → Fin N → Prop) [∀ e p, Decidable (land e p)] (κ κ' : Fin R → Fin N)
    (x : Fin N → Fin C → EReal) : Fin N → Fin C → EReal :=
  fun p q => 0 + ∑ e : Fin R, if land e p then (d (κ' e) * d (κ e)) * x (κ e) q else 0

/-- The two arrangements of one step agree. -/
theorem step_eq (d : Fin N → EReal) (hd0 : ∀ p, 0 ≤ d p) (hdt : ∀ p, d p ≠ ⊤)
    (land : Fin R → Fin N → Prop) [∀ e p, Decidable (land e p)] (κ κ' : Fin R → Fin N)
    (hκ' : ∀ e p, land e p → κ' e = p) (x : Fin N → Fin C → EReal) :
    stepScaled d land κ (fun p q => x p q * d p) = stepWeighted d land κ κ' x := by
  funext p q
  unfold stepScaled stepWeighted
  rw [zero_add, zero_add, sum_mul_of_nonneg_ne_top _ _ (hd0 p) (hdt p)]
  refine Finset.sum_congr rfl fun e _ => ?_
  by_cases h : land e p
  · rw [if_pos h, if_pos h, hκ' e p h]
    simp only [mul_comm, mul_left_comm]
  · rw [if_neg h, if_neg h, zero_mul]

/-- The initial table plus three steps in the scaled arrangement, each step's table multiplied by `d` before the
    next one reads it. -/
def accScaled (d : Fin N → EReal) (land : Fin R → Fin N → Prop) [∀ e p, Decidable (land e p)] (κ : Fin R → Fin N)
    (x0 : Fin N → Fin C → EReal) : Fin N → Fin C → EReal :=
  let x1 := stepScaled d land κ (fun p q => x0 p q * d p)
  let x2 := stepScaled d land κ (fun p q => x1 p q * d p)
  let x3 := stepScaled d land κ (fun p q => x2 p q * d p)
  fun p q => ((x0 p q + x1 p q) + x2 p q) + x3 p q

/-- The initial table plus three steps in the weighted arrangement. -/
def accWeighted (d : Fin N → EReal) (land : Fin R → Fin N → Prop) [∀ e p, Decidable (land e p)] (κ κ' : Fin R → Fin N)
    (x0 : Fin N → Fin C → EReal) : Fin N → Fin C → EReal :=
  let x1 := stepWeighted d land κ κ' x0
  let x2 := stepWeighted d land κ κ' x1
  let x3 := stepWeighted d land κ κ' x2
  fun p q => ((x0 p q + x1 p q) + x2 p q) + x3 p q

/-- Three accumulated steps agree in the two arrangements. -/
theorem acc_eq (d : Fin N → EReal) (hd0 : ∀ p, 0 ≤ d p) (hdt : ∀ p, d p ≠ ⊤)
    (land : Fin R → Fin N → Prop) [∀ e p, Decidable (land e p)] (κ κ' : Fin R → Fin N)
    (hκ' : ∀ e p, land e p → κ' e = p) (x0 : Fin N → Fin C → EReal) :
    accScaled d land κ x0 = accWeighted d land κ κ' x0 := by
  unfold accScaled accWeighted
  simp only [step_eq d hd0 hdt land κ κ' hκ']

/-- A quarter of an extended real is its quotient by four (the host's division, at the infinities too). -/
theorem quarter_eq_div_four (a : EReal) :
    a * ((1 / 4 : ℝ) : EReal) = Idealize.ShloMosaic.Ideal.div a ((4 : ℝ) : EReal) :=
  (Idealize.ShloMosaic.Ideal.div_coe (by norm_num : (4 : ℝ) ≠ 0) a).symm

/-- A finite sum of nonnegative real numbers, read in the extended reals, is a nonnegative real number. -/
theorem sum_nonneg_real {ι : Type} (s : Finset ι) (f : ι → EReal) (hf : ∀ e ∈ s, ∃ y : ℝ, 0 ≤ y ∧ f e = (y : EReal)) :
    ∃ y : ℝ, 0 ≤ y ∧ ∑ e ∈ s, f e = (y : EReal) := by
  classical
  induction s using Finset.induction_on with
  | empty => exact ⟨0, le_refl _, by simp⟩
  | insert a s ha ih =>
    obtain ⟨y, hy, e1⟩ := ih (fun e he => hf e (Finset.mem_insert_of_mem he))
    obtain ⟨z, hz, e2⟩ := hf a (Finset.mem_insert_self a s)
    exact ⟨z + y, add_nonneg hz hy, by rw [Finset.sum_insert ha, e1, e2, EReal.coe_add]⟩

/-- The normalisation factor: a nonnegative real degree plus a nonnegative real offset, raised to a real power, is a
    nonnegative extended real below `+∞`. -/
theorem pow_nonneg_ne_top {g ε y : ℝ} (hg : 0 ≤ g) (hε : 0 ≤ ε) :
    0 ≤ Idealize.ShloMosaic.Ideal.pow ((g : EReal) + (ε : EReal)) (y : EReal)
      ∧ Idealize.ShloMosaic.Ideal.pow ((g : EReal) + (ε : EReal)) (y : EReal) ≠ ⊤ := by
  rw [← EReal.coe_add, Idealize.ShloMosaic.Ideal.pow_coe_coe]
  exact ⟨EReal.coe_nonneg.mpr (Real.rpow_nonneg (add_nonneg hg hε) y), EReal.coe_ne_top _⟩

end Cert.Propagation

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibLossLaws.lean ====
/-
  The laws on the extended reals that join a numerically stable loss to its textbook form.

  Every float of an idealized program is an extended real, and the usual algebra (cancelling, regrouping a sum of
  products, log (a · b) = log a + log b) holds for real numbers and can fail at an infinity. The programs compared here
  work on finite inputs, so every entry they meet is a real number; this file has the laws that are then needed:

    * the stable softplus: max (x, 0) + log1p (exp (0 − |x|)) = log1p (exp x) for a real x, where |x| is spelled
      max (x, −x); and its value, the real number log (1 + exp x);
    * the square root of a nonnegative real number is the real square root; of max (a, ε) with ε ≥ 0 in particular;
    * the maximum of two real numbers, inside the extended reals, is the real maximum;
    * each float literal of the two programs denotes a real number, the small ones nonnegative, and 2.0 and 2^26 exactly;
    * real numbers are closed under −, max, negation, the square root of a nonnegative one and the softplus terms (sums,
      products and finite sums are in the imported library), and a regrouping of a sum of products of real numbers is
      proved by moving the coercions outward and appealing to the ring laws of the real numbers.

  Nothing here depends on a particular program.
-/
import Idealize.ShloMosaic.PureOps.Ideal
import Idealize.ShloMosaic.PureOps.Ideal.Laws
import Mathlib.Analysis.SpecialFunctions.Log.Basic
import Mathlib.Tactic
import proofs.«167429_j85753317032076_2_alg».proof.Proof.LibRealValued

noncomputable section

namespace Cert.LossLaws

open Idealize.ShloMosaic
open Cert.RealValued (IsReal isReal_zero isReal_sum ieee_isReal)

/-! ### Maximum, softplus and square root of real numbers -/

/-- The coercion of the real numbers into the extended reals is monotone, so it commutes with the maximum. -/
theorem max_real (a b : ℝ) : max (a : EReal) (b : EReal) = ((max a b : ℝ) : EReal) :=
  (EReal.coe_strictMono.monotone.map_max).symm

/-- log1p (exp x) of a real x is the real number log (1 + exp x): 1 + exp x is positive, so the logarithm is at no
    corner. -/
theorem log1p_exp_real (x : ℝ) :
    Ideal.log1p (Ideal.exp (x : EReal)) = ((Real.log (1 + Real.exp x) : ℝ) : EReal) := by
  have hpos : ¬ (1 + Real.exp x ≤ 0) := not_le.mpr (by positivity)
  rw [Ideal.log1p, Ideal.exp_coe, ← EReal.coe_one, ← EReal.coe_add, Ideal.log_coe, if_neg hpos]

/-- The stable softplus over the real numbers. For x ≥ 0: x + log (1 + exp (−x)) = log (exp x · (1 + exp (−x)))
    = log (exp x + 1). For x ≤ 0: |x| = −x and the left side is 0 + log (1 + exp x). -/
theorem softplus_real (x : ℝ) :
    max x 0 + Real.log (1 + Real.exp (0 - max x (-x))) = Real.log (1 + Real.exp x) := by
  rcases le_total 0 x with h | h
  · have h1 : max x 0 = x := max_eq_left h
    have h2 : max x (-x) = x := max_eq_left (by linarith)
    have hpos : (0 : ℝ) < 1 + Real.exp (-x) := by positivity
    rw [h1, h2, zero_sub]
    calc x + Real.log (1 + Real.exp (-x))
        = Real.log (Real.exp x) + Real.log (1 + Real.exp (-x)) := by rw [Real.log_exp]
      _ = Real.log (Real.exp x * (1 + Real.exp (-x))) :=
          (Real.log_mul (Real.exp_pos x).ne' hpos.ne').symm
      _ = Real.log (1 + Real.exp x) := by
          congr 1
          rw [mul_add, mul_one, ← Real.exp_add, add_neg_cancel, Real.exp_zero, add_comm]
  · have h1 : max x 0 = 0 := max_eq_right h
    have h2 : max x (-x) = -x := max_eq_right (by linarith)
    rw [h1, h2, zero_add, zero_sub, neg_neg]

/-- The stable form's inner argument 0 − |x| of a real x is the real number 0 − max (x, −x). -/
theorem neg_abs_real (x : ℝ) :
    (0 : EReal) - max (x : EReal) (-(x : EReal)) = ((0 - max x (-x) : ℝ) : EReal) := by
  rw [← EReal.coe_neg, max_real, ← EReal.coe_zero, ← EReal.coe_sub]

/-- max (x, 0) of a real x is the real maximum. -/
theorem max_zero_real (x : ℝ) : max (x : EReal) 0 = ((max x 0 : ℝ) : EReal) := by
  rw [← EReal.coe_zero, max_real]

/-- The stable softplus on the extended reals, at a real x: both sides are real numbers and the real law applies. -/
theorem softplus_stable (x : ℝ) :
    max (x : EReal) 0 + Ideal.log1p (Ideal.exp (0 - max (x : EReal) (-(x : EReal))))
      = Ideal.log1p (Ideal.exp (x : EReal)) := by
  rw [max_zero_real, neg_abs_real, log1p_exp_real, log1p_exp_real, ← EReal.coe_add, softplus_real]

/-- The stable softplus of a real x is the real number log (1 + exp x). -/
theorem softplus_stable_value (x : ℝ) :
    max (x : EReal) 0 + Ideal.log1p (Ideal.exp (0 - max (x : EReal) (-(x : EReal))))
      = ((Real.log (1 + Real.exp x) : ℝ) : EReal) := by
  rw [softplus_stable, log1p_exp_real]

/-- The square root of a nonnegative real number is the real square root. -/
theorem sqrt_real {r : ℝ} (h : 0 ≤ r) : Ideal.sqrt (r : EReal) = ((Real.sqrt r : ℝ) : EReal) := by
  rw [Ideal.sqrt_coe, if_neg (not_lt.mpr h)]

/-- The square root of max (a, ε), for real a and a real ε ≥ 0, is the real square root of the real maximum. -/
theorem sqrt_max_real (a : ℝ) {e : ℝ} (he : 0 ≤ e) :
    Ideal.sqrt (max (a : EReal) (e : EReal)) = ((Real.sqrt (max a e) : ℝ) : EReal) := by
  rw [max_real, sqrt_real (le_trans he (le_max_right a e))]

/-! ### Real numbers inside the extended reals: closure -/

/-- A coerced real number is a real number. -/
theorem isReal_coe (r : ℝ) : IsReal (r : EReal) := ⟨r, rfl⟩

/-- One is a real number. -/
theorem isReal_one : IsReal 1 := ⟨1, EReal.coe_one.symm⟩

/-- The negation of a real number is a real number. -/
theorem _root_.Cert.RealValued.IsReal.neg {a : EReal} (ha : IsReal a) : IsReal (-a) := by
  obtain ⟨r, rfl⟩ := ha
  exact ⟨-r, (EReal.coe_neg r).symm⟩

/-- The difference of two real numbers is a real number. -/
theorem _root_.Cert.RealValued.IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two real numbers is a real number. -/
theorem _root_.Cert.RealValued.IsReal.max {a b : EReal} (ha : IsReal a) (hb : IsReal b) : IsReal (Max.max a b) := by
  obtain ⟨r, rfl⟩ := ha
  obtain ⟨s, rfl⟩ := hb
  exact ⟨Max.max r s, max_real r s⟩

/-- A sum of real numbers over a whole finite index type is a real number. -/
theorem _root_.Cert.RealValued.IsReal.sum {ι : Type} [Fintype ι] {f : ι → EReal} (h : ∀ i, IsReal (f i)) : IsReal (∑ i, f i) :=
  isReal_sum Finset.univ f fun i _ => h i

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The square root of a nonnegative real number is a real number. -/
theorem _root_.Cert.RealValued.IsReal.sqrt {a : EReal} (ha : IsReal a) (h0 : 0 ≤ a) : IsReal (Ideal.sqrt a) := by
  obtain ⟨r, rfl⟩ := ha
  have hr : 0 ≤ r := by rwa [← EReal.coe_zero, EReal.coe_le_coe_iff] at h0
  exact ⟨Real.sqrt r, sqrt_real hr⟩

/-- The square root of max (a, ε), for real a and a real ε ≥ 0, is a real number. -/
theorem _root_.Cert.RealValued.IsReal.sqrt_max {a e : EReal} (ha : IsReal a) (he : IsReal e) (h0 : 0 ≤ e) :
    IsReal (Ideal.sqrt (Max.max a e)) :=
  (ha.max he).sqrt (le_trans h0 (le_max_right a e))

/-- log1p (exp a) of a real number a is a real number. -/
theorem _root_.Cert.RealValued.IsReal.log1p_exp {a : EReal} (ha : IsReal a) : IsReal (Ideal.log1p (Ideal.exp a)) := by
  obtain ⟨r, rfl⟩ := ha
  exact ⟨_, log1p_exp_real r⟩

/-- The stable softplus at a real number, stated on an extended real known to be one. -/
theorem softplus_stable_of_isReal {a : EReal} (ha : IsReal a) :
    max a 0 + Ideal.log1p (Ideal.exp (0 - max a (-a))) = Ideal.log1p (Ideal.exp a) := by
  obtain ⟨r, rfl⟩ := ha
  exact softplus_stable r

/-- The stable softplus term of a real number is a real number. -/
theorem _root_.Cert.RealValued.IsReal.softplus {a : EReal} (ha : IsReal a) :
    IsReal (Max.max a 0 + Ideal.log1p (Ideal.exp (0 - Max.max a (-a)))) := by
  rw [softplus_stable_of_isReal ha]
  exact ha.log1p_exp

/-! ### The same laws in the operations of an idealized program

An idealized program spells these terms in the float operations at the extended reals — sum, difference, maximum,
absolute value max (a, −a), exp, log1p, sqrt — and its zero as the all-zero f32 word. Each operation is by definition
the extended-real one, so the laws above apply as they stand. -/

/-- The stable softplus in a program's operations, its zero the all-zero f32 word. -/
theorem softplus_stable_ops (a : Ideal .f32) (ha : IsReal a) :
    FloatOps.addf (FloatOps.maximumf a (Ideal.ofBits .f32 0x00000000#32))
        (FloatOps.log1p (FloatOps.exp (FloatOps.subf (Ideal.ofBits .f32 0x00000000#32) (FloatOps.absf a))))
      = FloatOps.log1p (FloatOps.exp a) := by
  show max a (Ideal.ofBits .f32 0x00000000#32)
      + Ideal.log1p (Ideal.exp (Ideal.ofBits .f32 0x00000000#32 - max a (-a))) = Ideal.log1p (Ideal.exp a)
  rw [Ideal.ofBits_zero_f32]
  exact softplus_stable_of_isReal ha

/-- A program's square root of a maximum with a nonnegative real ε, at a real number: a real number. -/
theorem isReal_sqrt_max_ops {a e : Ideal .f32} (ha : IsReal a) (he : IsReal e) (h0 : (0 : EReal) ≤ e) :
    IsReal (FloatOps.sqrt (FloatOps.maximumf a e) : Ideal .f32) :=
  IsReal.sqrt_max ha he h0

/-! ### The float literals of the two programs -/

/-- An f32 word whose exponent field is not all ones denotes a real number. -/
theorem f32_isReal (w : BitVec 32) (h : (w.extractLsb' 23 8).toNat ≠ 2 ^ 8 - 1) :
    IsReal (Ideal.ofBits .f32 w) :=
  ieee_isReal 8 23 w h

/-- A float word with a clear sign bit and an exponent field that is not all ones denotes a nonnegative real number:
    its value is a natural number times a power of two. -/
theorem ieee_nonneg (e m : Nat) {w : Nat} (b : BitVec w) (h : (b.extractLsb' m e).toNat ≠ 2 ^ e - 1)
    (hs : (b.extractLsb' (e + m) 1 == 1#1) = false) : ∃ r : ℝ, 0 ≤ r ∧ Ideal.ieee e m b = (r : EReal) := by
  unfold Ideal.ieee
  dsimp only
  rw [if_neg h, hs]
  simp only [Bool.false_eq_true, if_false]
  split
  · exact ⟨_, by positivity, rfl⟩
  · exact ⟨_, by positivity, rfl⟩

/-- The same for an f32 word. -/
theorem f32_nonneg (w : BitVec 32) (h : (w.extractLsb' 23 8).toNat ≠ 2 ^ 8 - 1)
    (hs : (w.extractLsb' 31 1 == 1#1) = false) : ∃ r : ℝ, 0 ≤ r ∧ Ideal.ofBits .f32 w = (r : EReal) :=
  ieee_nonneg 8 23 w h hs

/-- 0.0 -/
theorem lit_zero : Ideal.ofBits .f32 0x00000000#32 = ((0 : ℝ) : EReal) := by
  rw [Ideal.ofBits_zero_f32, EReal.coe_zero]

/-- 1e-12 as an f32: a nonnegative real number. -/
theorem lit_eps12 : ∃ r : ℝ, 0 ≤ r ∧ Ideal.ofBits .f32 0x2B8CBCCC#32 = (r : EReal) :=
  f32_nonneg _ (by decide) (by decide)

/-- 1e-6 as an f32: a nonnegative real number. -/
theorem lit_eps6 : ∃ r : ℝ, 0 ≤ r ∧ Ideal.ofBits .f32 0x358637BD#32 = (r : EReal) :=
  f32_nonneg _ (by decide) (by decide)

/-- 2e-6 as an f32: a nonnegative real number. -/
theorem lit_2eps6 : ∃ r : ℝ, 0 ≤ r ∧ Ideal.ofBits .f32 0x360637BD#32 = (r : EReal) :=
  f32_nonneg _ (by decide) (by decide)

/-- 5.12e-10 as an f32: a nonnegative real number. -/
theorem lit_512eps12 : ∃ r : ℝ, 0 ≤ r ∧ Ideal.ofBits .f32 0x300CBCCC#32 = (r : EReal) :=
  f32_nonneg _ (by decide) (by decide)

/-- 2.0: sign 0, exponent field 128, fraction 0, that is 2^23 · 2^(128 − 127 − 23) = 2. -/
theorem lit_two : Ideal.ofBits .f32 0x40000000#32 = ((2 : ℝ) : EReal) := by
  simp [Ideal.ofBits, Ideal.ieee, -EReal.coe_mul]; norm_num

/-- 2^26: sign 0, exponent field 153, fraction 0, that is 2^23 · 2^(153 − 127 − 23) = 2^26 = 67108864. -/
theorem lit_two_pow_26 : Ideal.ofBits .f32 0x4C800000#32 = ((67108864 : ℝ) : EReal) := by
  simp [Ideal.ofBits, Ideal.ieee, -EReal.coe_mul]; norm_num

/-- Every float literal of the two programs is a real number. -/
theorem lit_isReal :
    IsReal (Ideal.ofBits .f32 0x00000000#32) ∧ IsReal (Ideal.ofBits .f32 0x2B8CBCCC#32)
      ∧ IsReal (Ideal.ofBits .f32 0x358637BD#32) ∧ IsReal (Ideal.ofBits .f32 0x360637BD#32)
      ∧ IsReal (Ideal.ofBits .f32 0x300CBCCC#32) ∧ IsReal (Ideal.ofBits .f32 0x40000000#32)
      ∧ IsReal (Ideal.ofBits .f32 0x4C800000#32) :=
  ⟨f32_isReal _ (by decide), f32_isReal _ (by decide), f32_isReal _ (by decide), f32_isReal _ (by decide),
    f32_isReal _ (by decide), f32_isReal _ (by decide), f32_isReal _ (by decide)⟩

/-- The ε under the square root is nonnegative as an extended real. -/
theorem lit_eps12_nonneg : (0 : EReal) ≤ Ideal.ofBits .f32 0x2B8CBCCC#32 := by
  obtain ⟨r, hr, e⟩ := lit_eps12
  rw [e, ← EReal.coe_zero, EReal.coe_le_coe_iff]
  exact hr

/-! ### Regrouping a sum of products of real numbers

The extended reals are not a ring: a product does not distribute over a sum, and a − a is not 0, when an infinity is
present. For real numbers move every coercion outward — each of +, −, · of coerced real numbers is the coerced
real operation — until both sides are one coerced real expression, and the ring laws of the real numbers finish. -/

/-- The squared distance regrouped: the row term a2 + c·sa + e, the column term p2 − c·sp, minus k times the product,
    against a2 + p2 − k·d plus the correction c·(sa − sp) + e. -/
theorem real_ring_example (a2 sa p2 sp d c e k : ℝ) :
    (((a2 : EReal) + (c : EReal) * (sa : EReal) + (e : EReal)) + ((p2 : EReal) - (c : EReal) * (sp : EReal)))
        - (k : EReal) * (d : EReal)
      = ((((a2 : EReal) + (p2 : EReal)) - (k : EReal) * (d : EReal)) + (c : EReal) * ((sa : EReal) - (sp : EReal)))
        + (e : EReal) := by
  simp only [← EReal.coe_add, ← EReal.coe_mul, ← EReal.coe_sub]
  congr 1
  ring

/-- The same law on extended reals known to be real numbers: name the real numbers, then proceed as above. -/
theorem real_ring_example_isReal {a2 sa p2 sp d c e k : EReal} (h1 : IsReal a2) (h2 : IsReal sa) (h3 : IsReal p2)
    (h4 : IsReal sp) (h5 : IsReal d) (h6 : IsReal c) (h7 : IsReal e) (h8 : IsReal k) :
    ((a2 + c * sa + e) + (p2 - c * sp)) - k * d = (((a2 + p2) - k * d) + c * (sa - sp)) + e := by
  obtain ⟨a2, rfl⟩ := h1
  obtain ⟨sa, rfl⟩ := h2
  obtain ⟨p2, rfl⟩ := h3
  obtain ⟨sp, rfl⟩ := h4
  obtain ⟨d, rfl⟩ := h5
  obtain ⟨c, rfl⟩ := h6
  obtain ⟨e, rfl⟩ := h7
  obtain ⟨k, rfl⟩ := h8
  exact real_ring_example a2 sa p2 sp d c e k

end Cert.LossLaws

end
-- ==== Proof.Consts.lean ====
/-
  The float literals the two programs spell, as the extended reals they denote.

  Both programs add the word of 1e-8 (rounded to single precision) to the degree and raise the sum to the word of -1/2;
  the degree itself is a sum of the word of 1 onto the word of 0; the kernel multiplies the accumulated layers by the
  word of 1/4 where the reference divides by the word of 4. Of the offset only the sign and the finiteness matter, of
  the exponent only the finiteness; 1/4 and 4 are exact dyadics and meet each other exactly.
-/
import Idealize.ShloMosaic.PureOps.Ideal
import proofs.«167429_j85753317032076_2_alg».proof.Proof.LibLossLaws

noncomputable section

namespace Cert.Consts

open Idealize.ShloMosaic

/-- The word of `+0.0` denotes `0`. -/
theorem ofBits_zero : Ideal.ofBits .f32 0x00000000#32 = 0 := Ideal.ofBits_zero_f32

/-- The word of `1.0` denotes `1`. -/
theorem ofBits_one : Ideal.ofBits .f32 0x3F800000#32 = ((1 : ℝ) : EReal) := by
  simp [Ideal.ofBits, Ideal.ieee, -EReal.coe_mul]; norm_num

/-- The word of `4.0` denotes `4`. -/
theorem ofBits_four : Ideal.ofBits .f32 0x40800000#32 = ((4 : ℝ) : EReal) := by
  simp [Ideal.ofBits, Ideal.ieee, -EReal.coe_mul]; norm_num

/-- The word of `0.25` denotes `1/4`. -/
theorem ofBits_quarter : Ideal.ofBits .f32 0x3E800000#32 = ((1 / 4 : ℝ) : EReal) := by
  simp [Ideal.ofBits, Ideal.ieee, -EReal.coe_mul]; norm_num

/-- The word of `-0.5` denotes a real number (its exponent field is not all ones). -/
theorem ofBits_neg_half : ∃ y : ℝ, Ideal.ofBits .f32 0xBF000000#32 = (y : EReal) :=
  Cert.LossLaws.f32_isReal _ (by decide)

/-- The single-precision word nearest `1e-8` denotes a nonnegative real number (sign bit clear, exponent field not
    all ones). -/
theorem ofBits_eps : ∃ y : ℝ, 0 ≤ y ∧ Ideal.ofBits .f32 0x322BCC77#32 = (y : EReal) :=
  Cert.LossLaws.f32_nonneg _ (by decide) (by decide)

end Cert.Consts

end
-- ==== Proof.Bridge.lean ====
/-
  From the host's gather and scatter-add to the layer algebra, for any numbers of nodes, edges and columns.

  An edge list is kept as a column of row numbers (where each edge lands) and a column of start indices (which row each
  edge reads). The host's scatter-add of whole rows puts on node p the sum of the update rows of the edges whose row
  number, read signed, is p; its gather of whole rows gives edge e the table's row at e's start index read signed and
  clamped into 0 … N − 1. Composed, they are one propagation step of the layer algebra, read entry by entry. The
  blocked kernels' arrangement (rows scaled by the node's factor before the gather and after the scatter) and the
  plain arrangement (every gathered row times its edge's weight) are then the two accumulations that algebra
  compares, provided the factors are nonnegative and below +∞, the weight of edge e is the factor at the node e
  lands on (read a second time, wrapped and clamped) times the factor at its source, and that second reading gives
  back the landing node.
-/
import Idealize.ShloMosaic.PureOps.Ideal
import Idealize.ShloMosaic.Lib.ValueIdx
import Idealize.ShloMosaic.Lib.Pipeline.Value
import proofs.«167429_j85753317032076_2_alg».proof.Proof.LibRowGather
import proofs.«167429_j85753317032076_2_alg».proof.Proof.LibRowScatterAdd
import proofs.«167429_j85753317032076_2_alg».proof.Proof.LibVectorGather
import proofs.«167429_j85753317032076_2_alg».proof.Proof.LayerAlgebra
import proofs.«167429_j85753317032076_2_alg».proof.Proof.Consts

noncomputable section

namespace Cert.Propagation

open Idealize.ShloMosaic Idealize.ShloMosaic.ValueIdx
open scoped BigOperators

variable {N R C : Nat}

/-- The node a column of start indices names for edge `e`: the index read signed, clamped into `0 … N − 1`. -/
def clampNode (hN : 0 < N) (idx : IVec ⟨2, ![R, 1]⟩ 32) (e : Fin R) : Fin N :=
  ⟨min (idx (ix2 e (0 : Fin 1))).toInt.toNat (N - 1), by omega⟩

/-- Edge `e` lands on node `p`: its row number, read signed, is `p`. -/
abbrev lands (rowsI : IVec ⟨2, ![R, 1]⟩ 32) (e : Fin R) (p : Fin N) : Prop :=
  (rowsI (ix2 e (0 : Fin 1))).toInt = (p.val : Int)

/-- A two-axis array as a table of rows and columns. -/
def tab (x : (⟨2, ![N, C]⟩ : Shape).Idx → EReal) : Fin N → Fin C → EReal := fun p q => x (ix2 p q)

/-! ## Layout reads -/

/-- A vector kept as a one-column array, read at row `e`. -/
theorem column_apply {α : Type} (h : (⟨1, ![R]⟩ : Shape).BroadcastsInDim ⟨2, ![R, 1]⟩ (![0] : Fin 1 → Fin 2))
    (v : (⟨1, ![R]⟩ : Shape).Idx → α) (e : Fin R) :
    broadcastInDim ⟨2, ![R, 1]⟩ ![0] h v (ix2 e (0 : Fin 1)) = v (ix1 e) :=
  broadcastInDim_apply _ h v _ (ix1 e) (fun a => by
    match a with
    | ⟨0, _⟩ =>
      show e.val = if R = 1 then 0 else e.val
      have := e.isLt
      split <;> omega)

/-- A one-column array repeated along the columns, read at `(e, q)`. -/
theorem repeat_apply {α : Type} (h : (⟨2, ![R, 1]⟩ : Shape).BroadcastsInDim ⟨2, ![R, C]⟩ (![0, 1] : Fin 2 → Fin 2))
    (v : (⟨2, ![R, 1]⟩ : Shape).Idx → α) (e : Fin R) (q : Fin C) :
    broadcastInDim ⟨2, ![R, C]⟩ ![0, 1] h v (ix2 e q) = v (ix2 e (0 : Fin 1)) :=
  broadcastInDim_apply _ h v _ (ix2 e (0 : Fin 1)) (fun a => by
    match a with
    | ⟨0, _⟩ =>
      show e.val = if R = 1 then 0 else e.val
      have := e.isLt
      split <;> omega
    | ⟨1, _⟩ => rfl)

/-! ## The two whole-array arrangements -/

/-- Every row of a table times that row's entry of a one-column array. -/
def scaleRowsG (x : (⟨2, ![N, C]⟩ : Shape).Idx → EReal) (d2 : (⟨2, ![N, 1]⟩ : Shape).Idx → EReal) :
    (⟨2, ![N, C]⟩ : Shape).Idx → EReal :=
  fun i => x i * d2 (ix2 (⟨(i 0).val, idx2_lt0 i⟩ : Fin N) (0 : Fin 1))

/-- Two tables added entry by entry. -/
def addRowsG (a x : (⟨2, ![N, C]⟩ : Shape).Idx → EReal) : (⟨2, ![N, C]⟩ : Shape).Idx → EReal := fun i => a i + x i

variable (hN : 0 < N)
  (wfS : ScatterDims.WF ⟨2, ![N, C]⟩ ⟨2, ![R, 1]⟩ ⟨2, ![R, C]⟩ [1] [0] [0] 1)
  (wfG : GatherDims.WF ⟨2, ![N, C]⟩ ⟨2, ![R, 1]⟩ ⟨2, ![R, C]⟩ [1] [0] [] [0] [] 1 ![1, C])
  (z : FVec Ideal ⟨2, ![N, C]⟩ .f32) (rowsI colsI : IVec ⟨2, ![R, 1]⟩ 32)
  (d2 : FVec Ideal ⟨2, ![N, 1]⟩ .f32) (w2 : FVec Ideal ⟨2, ![R, C]⟩ .f32)

/-- One layer in the blocked kernels' arrangement: scale the rows, gather, sum onto the landing nodes, scale again. -/
def layerScaled (y : FVec Ideal ⟨2, ![N, C]⟩ .f32) : FVec Ideal ⟨2, ![N, C]⟩ .f32 :=
  scaleRowsG (Host.scatterAdd (F := Ideal) (RowScatter.rowDims N R C wfS) z rowsI
    (Host.gather (RowGather.rowDims N R C wfG) (scaleRowsG y d2) colsI)) d2

/-- One layer in the plain arrangement: gather, weight every gathered row, sum onto the landing nodes. -/
def layerWeighted (y : FVec Ideal ⟨2, ![N, C]⟩ .f32) : FVec Ideal ⟨2, ![N, C]⟩ .f32 :=
  Host.scatterAdd (F := Ideal) (RowScatter.rowDims N R C wfS) z rowsI
    (mulf w2 (Host.gather (RowGather.rowDims N R C wfG) y colsI))

/-- The initial table plus three layers, blocked arrangement. -/
def accLayersScaled (x0 : FVec Ideal ⟨2, ![N, C]⟩ .f32) : FVec Ideal ⟨2, ![N, C]⟩ .f32 :=
  addRowsG (addRowsG (addRowsG x0 (layerScaled wfS wfG z rowsI colsI d2 x0))
    (layerScaled wfS wfG z rowsI colsI d2 (layerScaled wfS wfG z rowsI colsI d2 x0)))
    (layerScaled wfS wfG z rowsI colsI d2 (layerScaled wfS wfG z rowsI colsI d2 (layerScaled wfS wfG z rowsI colsI d2 x0)))

/-- The initial table plus three layers, plain arrangement. -/
def accLayersWeighted (x0 : FVec Ideal ⟨2, ![N, C]⟩ .f32) : FVec Ideal ⟨2, ![N, C]⟩ .f32 :=
  addRowsG (addRowsG (addRowsG x0 (layerWeighted wfS wfG z rowsI colsI w2 x0))
    (layerWeighted wfS wfG z rowsI colsI w2 (layerWeighted wfS wfG z rowsI colsI w2 x0)))
    (layerWeighted wfS wfG z rowsI colsI w2 (layerWeighted wfS wfG z rowsI colsI w2 (layerWeighted wfS wfG z rowsI colsI w2 x0)))

/-! ## Read entry by entry -/

/-- A layer of the blocked arrangement is a scaled step of the layer algebra. -/
theorem tab_layerScaled (hz : ∀ i, z i = 0) (y : FVec Ideal ⟨2, ![N, C]⟩ .f32) :
    tab (layerScaled wfS wfG z rowsI colsI d2 y)
      = stepScaled (fun p => d2 (ix2 p (0 : Fin 1))) (lands rowsI) (clampNode hN colsI)
          (fun p q => tab y p q * d2 (ix2 p (0 : Fin 1))) := by
  funext p q
  show Host.scatterAdd (F := Ideal) (RowScatter.rowDims N R C wfS) z rowsI
      (Host.gather (RowGather.rowDims N R C wfG) (scaleRowsG y d2) colsI) (ix2 p q) * d2 (ix2 p (0 : Fin 1)) = _
  rw [RowScatter.host_scatterAdd_row_apply, hz]
  unfold stepScaled
  refine congrArg (fun s => (0 + s) * d2 (ix2 p (0 : Fin 1))) (Finset.sum_congr rfl fun e _ => ?_)
  rw [RowGather.gather_row_apply hN]
  rfl

/-- A layer of the plain arrangement is a weighted step of the layer algebra. -/
theorem tab_layerWeighted (hz : ∀ i, z i = 0) (κ' : Fin R → Fin N)
    (hw : ∀ e q, w2 (ix2 e q) = d2 (ix2 (κ' e) (0 : Fin 1)) * d2 (ix2 (clampNode hN colsI e) (0 : Fin 1)))
    (y : FVec Ideal ⟨2, ![N, C]⟩ .f32) :
    tab (layerWeighted wfS wfG z rowsI colsI w2 y)
      = stepWeighted (fun p => d2 (ix2 p (0 : Fin 1))) (lands rowsI) (clampNode hN colsI) κ' (tab y) := by
  funext p q
  show Host.scatterAdd (F := Ideal) (RowScatter.rowDims N R C wfS) z rowsI
      (mulf w2 (Host.gather (RowGather.rowDims N R C wfG) y colsI)) (ix2 p q) = _
  rw [RowScatter.host_scatterAdd_row_apply, hz]
  unfold stepWeighted
  refine congrArg (fun s => 0 + s) (Finset.sum_congr rfl fun e _ => ?_)
  show (if lands rowsI e p then w2 (ix2 e q) * Host.gather (RowGather.rowDims N R C wfG) y colsI (ix2 e q) else 0) = _
  rw [RowGather.gather_row_apply hN, hw]
  rfl

/-- THE TWO ACCUMULATIONS AGREE, array for array. -/
theorem accLayers_eq (hz : ∀ i, z i = 0) (κ' : Fin R → Fin N)
    (hd0 : ∀ p : Fin N, 0 ≤ d2 (ix2 p (0 : Fin 1))) (hdt : ∀ p : Fin N, d2 (ix2 p (0 : Fin 1)) ≠ ⊤)
    (hκ' : ∀ e p, lands rowsI e p → κ' e = p)
    (hw : ∀ e q, w2 (ix2 e q) = d2 (ix2 (κ' e) (0 : Fin 1)) * d2 (ix2 (clampNode hN colsI e) (0 : Fin 1)))
    (x0 : FVec Ideal ⟨2, ![N, C]⟩ .f32) :
    accLayersScaled wfS wfG z rowsI colsI d2 x0 = accLayersWeighted wfS wfG z rowsI colsI w2 x0 := by
  funext i
  obtain ⟨p, q, rfl⟩ : ∃ (p : Fin N) (q : Fin C), i = ix2 p q := ⟨i 0, i 1, eq_ix2 i⟩
  have hS := tab_layerScaled hN wfS wfG z rowsI colsI d2 hz
  have hW := tab_layerWeighted hN wfS wfG z rowsI colsI d2 w2 hz κ' hw
  have hstep := step_eq (C := C) (fun p => d2 (ix2 p (0 : Fin 1))) hd0 hdt (lands rowsI) (clampNode hN colsI) κ' hκ'
  -- layer by layer the two arrangements give one table
  have h1 : layerScaled wfS wfG z rowsI colsI d2 x0 = layerWeighted wfS wfG z rowsI colsI w2 x0 := by
    funext j
    obtain ⟨a, b, rfl⟩ : ∃ (a : Fin N) (b : Fin C), j = ix2 a b := ⟨j 0, j 1, eq_ix2 j⟩
    exact congrFun (congrFun ((hS x0).trans ((hstep (tab x0)).trans (hW x0).symm)) a) b
  have hl : ∀ y, layerScaled wfS wfG z rowsI colsI d2 y = layerWeighted wfS wfG z rowsI colsI w2 y := by
    intro y
    funext j
    obtain ⟨a, b, rfl⟩ : ∃ (a : Fin N) (b : Fin C), j = ix2 a b := ⟨j 0, j 1, eq_ix2 j⟩
    exact congrFun (congrFun ((hS y).trans ((hstep (tab y)).trans (hW y).symm)) a) b
  unfold accLayersScaled accLayersWeighted
  simp only [hl]

/-- The kernel's last factor and the reference's last quotient: a quarter of every entry. -/
theorem quarter_eq (a b : FVec Ideal ⟨2, ![N, C]⟩ .f32) (h : a = b)
    (hb : (⟨0, ![]⟩ : Shape).BroadcastsInDim ⟨2, ![N, C]⟩ (![] : Fin 0 → Fin 2)) :
    mulf a (broadcastInDim ⟨2, ![N, C]⟩ ![] hb (constant (F := Ideal) ⟨0, ![]⟩ .f32 0x3E800000#32))
      = Host.divf b (broadcastInDim ⟨2, ![N, C]⟩ ![] hb (constant (F := Ideal) ⟨0, ![]⟩ .f32 0x40800000#32)) := by
  subst h
  funext i
  show a i * Ideal.ofBits .f32 0x3E800000#32 = Ideal.div (a i) (Ideal.ofBits .f32 0x40800000#32)
  rw [Cert.Consts.ofBits_quarter, Cert.Consts.ofBits_four, quarter_eq_div_four]

end Cert.Propagation

end
-- ==== Proof.EdgeFacts.lean ====
/-
  Three facts about the edge list and the normalisation factors, for any numbers of nodes, edges and columns.

  1. The landing node read a second time. The reference reads the factor at the node an edge lands on through a gather
     whose start index is the row number wrapped (a negative number gets N added) and then clamped into 0 … N − 1. On an
     edge that lands on node p the row number, read signed, IS p — nonnegative and below N — so neither the wrap nor the
     clamp changes it: the second reading is p.
  2. The weight of an edge, kept as a vector over the edges, made a column and repeated along the columns, is at (e, q)
     the factor at the landing node's second reading times the factor at the clamped source node.
  3. The factor of a node is (degree + offset) raised to a power, the degree a sum of ones onto zero over the edges
     landing there: a nonnegative real plus a nonnegative real, raised to a real power — a nonnegative extended real
     below +∞.
-/
import proofs.«167429_j85753317032076_2_alg».proof.Proof.Bridge

noncomputable section

namespace Cert.Propagation

open Idealize.ShloMosaic Idealize.ShloMosaic.ValueIdx
open scoped BigOperators

variable {N R C : Nat}

/-- FACT 1: on an edge that lands on node `p`, the wrapped and clamped row number is `p`. -/
theorem wrap_clamp_of_lands (hN : 0 < N)
    (hb : (⟨1, ![R]⟩ : Shape).BroadcastsInDim ⟨2, ![R, 1]⟩ (![0] : Fin 1 → Fin 2))
    (rows zero cN : IVec ⟨1, ![R]⟩ 32) (hzero : ∀ i, zero i = 0#32) (e : Fin R) (p : Fin N)
    (h : lands (broadcastInDim ⟨2, ![R, 1]⟩ ![0] hb rows) e p) :
    clampNode hN (broadcastInDim ⟨2, ![R, 1]⟩ ![0] hb (select (cmpi .slt rows zero) (addi rows cN) rows)) e = p := by
  have h' : (rows (ix1 e)).toInt = (p.val : Int) :=
    (congrArg BitVec.toInt (column_apply hb rows e)).symm.trans h
  have hs : select (cmpi .slt rows zero) (addi rows cN) rows (ix1 e) = rows (ix1 e) := by
    show Scalar.select (IntOp.cmpi .slt (rows (ix1 e)) (zero (ix1 e))) (addi rows cN (ix1 e)) (rows (ix1 e)) = _
    rw [hzero]
    have hnot : (rows (ix1 e)).slt 0#32 = false := by
      simp [BitVec.slt, h']
    unfold Scalar.select IntOp.cmpi
    simp [hnot]
  apply Fin.ext
  show min ((broadcastInDim ⟨2, ![R, 1]⟩ ![0] hb (select (cmpi .slt rows zero) (addi rows cN) rows))
    (ix2 e (0 : Fin 1))).toInt.toNat (N - 1) = p.val
  rw [column_apply, hs, h']
  have := p.isLt
  omega

/-- FACT 2: the repeated column of edge weights at `(e, q)`. -/
theorem weights_apply (hN : 0 < N)
    (wfV : GatherDims.WF ⟨1, ![N]⟩ ⟨2, ![R, 1]⟩ ⟨1, ![R]⟩ [] [0] [] [0] [] 1 ![1])
    (hb1 : (⟨1, ![R]⟩ : Shape).BroadcastsInDim ⟨2, ![R, 1]⟩ (![0] : Fin 1 → Fin 2))
    (hb2 : (⟨2, ![R, 1]⟩ : Shape).BroadcastsInDim ⟨2, ![R, C]⟩ (![0, 1] : Fin 2 → Fin 2))
    (hbN : (⟨1, ![N]⟩ : Shape).BroadcastsInDim ⟨2, ![N, 1]⟩ (![0] : Fin 1 → Fin 2))
    (dinv : FVec Ideal ⟨1, ![N]⟩ .f32) (rowsI' colsI : IVec ⟨2, ![R, 1]⟩ 32) (e : Fin R) (q : Fin C) :
    broadcastInDim ⟨2, ![R, C]⟩ ![0, 1] hb2 (broadcastInDim ⟨2, ![R, 1]⟩ ![0] hb1
        (mulf (Host.gather (VectorGather.entryDims N R wfV) dinv rowsI')
          (Host.gather (VectorGather.entryDims N R wfV) dinv colsI))) (ix2 e q)
      = broadcastInDim ⟨2, ![N, 1]⟩ ![0] hbN dinv (ix2 (clampNode hN rowsI' e) (0 : Fin 1))
        * broadcastInDim ⟨2, ![N, 1]⟩ ![0] hbN dinv (ix2 (clampNode hN colsI e) (0 : Fin 1)) := by
  rw [repeat_apply, column_apply, column_apply, column_apply]
  show Host.gather (VectorGather.entryDims N R wfV) dinv rowsI' (ix1 e)
      * Host.gather (VectorGather.entryDims N R wfV) dinv colsI (ix1 e) = _
  rw [VectorGather.gather_entry_apply hN, VectorGather.gather_entry_apply hN]
  rfl

/-- FACT 3: the normalisation factor at any index is nonnegative and below `+∞`. -/
theorem factor_nonneg_ne_top {s si su : Shape} (d1 : ScatterDims s si su) (zero : FVec Ideal s .f32) (idx : IVec si 32)
    (ones : FVec Ideal su .f32) (eps mh : FVec Ideal s .f32)
    (hzero : ∀ i, zero i = 0) (hones : ∀ j, ones j = ((1 : ℝ) : EReal))
    (heps : ∃ y : ℝ, 0 ≤ y ∧ ∀ i, eps i = (y : EReal)) (hmh : ∃ y : ℝ, ∀ i, mh i = (y : EReal)) (i : s.Idx) :
    0 ≤ Host.powf (addf (Host.scatterAdd (F := Ideal) d1 zero idx ones) eps) mh i
      ∧ Host.powf (addf (Host.scatterAdd (F := Ideal) d1 zero idx ones) eps) mh i ≠ ⊤ := by
  obtain ⟨ye, hye, heps⟩ := heps
  obtain ⟨ym, hmh⟩ := hmh
  obtain ⟨g, hg, hsum⟩ := sum_nonneg_real (Finset.univ.filter (fun j => d1.resultIdx? j idx = some i)) ones
    (fun j _ => ⟨1, zero_le_one, hones j⟩)
  have hdeg : Ideal.hostScatterAdd d1 zero idx ones i = (g : EReal) := by
    unfold Ideal.hostScatterAdd
    rw [hzero, zero_add, hsum]
  show 0 ≤ Ideal.pow (Ideal.hostScatterAdd d1 zero idx ones i + eps i) (mh i)
    ∧ Ideal.pow (Ideal.hostScatterAdd d1 zero idx ones i + eps i) (mh i) ≠ ⊤
  rw [hdeg, heps, hmh]
  exact pow_nonneg_ne_top hg hye

end Cert.Propagation

end
-- ==== Proof.Tables.lean ====
/-
  The kernel program's result table and the reference program's result table are one table.

  Both tables are read at the sizes of this program: 1,000,000 nodes, 4,000,000 directed edges, 64 columns. The kernel's
  is a quarter of "initial table plus three layers" in the blocked arrangement, the reference's the same sum in the
  plain arrangement divided by four. They agree by the layer algebra, whose three hypotheses hold here: every
  normalisation factor is (a sum of ones + a nonnegative offset) raised to a real power, hence nonnegative and below
  +∞; the edge weight is the product of the factors at the landing node's second reading and at the source node; and
  on an edge that lands on a node the second reading of its landing node is that node.
-/
import proofs.«167429_j85753317032076_2_alg».proof.Proof.KernelValue
import proofs.«167429_j85753317032076_2_alg».proof.Proof.RefValue
import proofs.«167429_j85753317032076_2_alg».proof.Proof.EdgeFacts
import Idealize.ShloMosaic.PureOps.Ideal

set_option maxRecDepth 16384

noncomputable section

namespace Cert.Tables

open Idealize.ShloMosaic Idealize.ShloMosaic.ValueIdx Cert.Propagation

/-! ## The program's sizes and side conditions -/

theorem nodes_pos : 0 < 1000000 := by decide

theorem wfS : ScatterDims.WF ⟨2, ![1000000, 64]⟩ ⟨2, ![4000000, 1]⟩ ⟨2, ![4000000, 64]⟩ [1] [0] [0] 1 :=
  Cert.KernelIdeal.scatter_S1000000x64_S4000000x1_S4000000x64_1_0_0_1.wf

theorem wfG : GatherDims.WF ⟨2, ![1000000, 64]⟩ ⟨2, ![4000000, 1]⟩ ⟨2, ![4000000, 64]⟩ [1] [0] [] [0] [] 1 ![1, 64] :=
  Cert.KernelIdeal.gather_S1000000x64_S4000000x1_S4000000x64_1_0_n_n_0_1_164.wf

theorem wfV : GatherDims.WF ⟨1, ![1000000]⟩ ⟨2, ![4000000, 1]⟩ ⟨1, ![4000000]⟩ [] [0] [] [0] [] 1 ![1] :=
  Cert.ReferenceIdeal.gather_S1000000_S4000000x1_S4000000_n_0_n_n_0_1_1.wf

theorem hbTable : (⟨0, ![]⟩ : Shape).BroadcastsInDim ⟨2, ![1000000, 64]⟩ (![] : Fin 0 → Fin 2) := Cert.KernelIdeal.Facts₀.bcast_S_S1000000x64
theorem hbEdges : (⟨1, ![4000000]⟩ : Shape).BroadcastsInDim ⟨2, ![4000000, 1]⟩ (![0] : Fin 1 → Fin 2) :=
  Cert.KernelIdeal.Facts₀.bcast_S4000000_S4000000x1_0
theorem hbRepeat : (⟨2, ![4000000, 1]⟩ : Shape).BroadcastsInDim ⟨2, ![4000000, 64]⟩ (![0, 1] : Fin 2 → Fin 2) :=
  Cert.ReferenceIdeal.Facts₀.bcast_S4000000x1_S4000000x64_0_1
theorem hbNodes : (⟨1, ![1000000]⟩ : Shape).BroadcastsInDim ⟨2, ![1000000, 1]⟩ (![0] : Fin 1 → Fin 2) :=
  Cert.KernelIdeal.Facts₀.bcast_S1000000_S1000000x1_0

variable (a0 : FVec Ideal ⟨2, ![600000, 64]⟩ .f32) (a1 : FVec Ideal ⟨2, ![400000, 64]⟩ .f32)
  (a2 a3 : IVec ⟨1, ![2000000]⟩ 32)

/-! ## The shared pieces, named once -/

/-- The landing nodes. -/
def landing : IVec ⟨1, ![4000000]⟩ 32 := Cert.KernelIdeal.Chain.rowsOf a2 a3
/-- The landing nodes as a one-column array. -/
def landingColumn : IVec ⟨2, ![4000000, 1]⟩ 32 := Cert.KernelIdeal.Hops.rowsI (landing a2 a3)
/-- The landing nodes read a second time: wrapped, as a one-column array. -/
def landingAgain : IVec ⟨2, ![4000000, 1]⟩ 32 := Cert.ReferenceIdeal.Chain.wrappedColumnOf (Cert.ReferenceIdeal.Chain.rowsOf a2 a3)
/-- The source nodes, wrapped, as a one-column array. -/
def sourceColumn : IVec ⟨2, ![4000000, 1]⟩ 32 := Cert.KernelIdeal.Hops.colsI (Cert.KernelIdeal.Chain.colsOf a2 a3)
/-- The zero table. -/
def zeroTable : FVec Ideal ⟨2, ![1000000, 64]⟩ .f32 := Cert.KernelIdeal.Hops.zeros
/-- The normalisation factors. -/
def factors : FVec Ideal ⟨1, ![1000000]⟩ .f32 := Cert.KernelIdeal.Chain.factorsOf a2 a3
/-- The factors as a one-column array. -/
def factorColumn : FVec Ideal ⟨2, ![1000000, 1]⟩ .f32 := Cert.KernelIdeal.Chain.factorColumnOf a2 a3
/-- The edge weights repeated along the columns. -/
def weights : FVec Ideal ⟨2, ![4000000, 64]⟩ .f32 := Cert.ReferenceIdeal.Chain.weightsOf a2 a3
/-- The initial table. -/
def initial : FVec Ideal ⟨2, ![1000000, 64]⟩ .f32 := Cert.KernelIdeal.Chain.tableOf a0 a1

/-! ## The two tables folded into the bridge's arrangements -/

set_option maxHeartbeats 4000000 in
theorem kernel_fold : Cert.KernelIdeal.Chain.resultTable (F := Ideal) a0 a1 a2 a3
    = mulf (accLayersScaled wfS wfG zeroTable (landingColumn a2 a3) (sourceColumn a2 a3) (factorColumn a2 a3) (initial a0 a1))
        (broadcastInDim ⟨2, ![1000000, 64]⟩ ![] hbTable (constant (F := Ideal) ⟨0, ![]⟩ .f32 0x3E800000#32)) := rfl

set_option maxHeartbeats 4000000 in
theorem reference_fold : Cert.ReferenceIdeal.Chain.resultTable (F := Ideal) a0 a1 a2 a3
    = Host.divf (accLayersWeighted wfS wfG zeroTable (landingColumn a2 a3) (sourceColumn a2 a3) (weights a2 a3) (initial a0 a1))
        (broadcastInDim ⟨2, ![1000000, 64]⟩ ![] hbTable (constant (F := Ideal) ⟨0, ![]⟩ .f32 0x40800000#32)) := rfl

/-! ## The layer algebra's hypotheses here -/

theorem zeroTable_apply (i : (⟨2, ![1000000, 64]⟩ : Shape).Idx) : zeroTable i = 0 := Cert.Consts.ofBits_zero

/-- Every factor is nonnegative and below `+∞`. -/
theorem factor_facts (p : Fin 1000000) :
    0 ≤ factorColumn a2 a3 (ix2 p (0 : Fin 1)) ∧ factorColumn a2 a3 (ix2 p (0 : Fin 1)) ≠ ⊤ := by
  have hcol : factorColumn a2 a3 (ix2 p (0 : Fin 1)) = factors a2 a3 (ix1 p) :=
    column_apply hbNodes (factors a2 a3) p
  rw [hcol]
  obtain ⟨ye, hye, he⟩ := Cert.Consts.ofBits_eps
  obtain ⟨ym, hm⟩ := Cert.Consts.ofBits_neg_half
  exact factor_nonneg_ne_top Cert.KernelIdeal.scatter_S1000000_S4000000x1_S4000000_n_0_0_1 _ (landingColumn a2 a3) _ _ _
    (fun _ => Cert.Consts.ofBits_zero) (fun _ => Cert.Consts.ofBits_one) ⟨ye, hye, fun _ => he⟩ ⟨ym, fun _ => hm⟩ (ix1 p)

/-- On an edge that lands on a node, the second reading of its landing node is that node. -/
theorem landingAgain_eq (e : Fin 4000000) (p : Fin 1000000) (h : lands (landingColumn a2 a3) e p) :
    clampNode nodes_pos (landingAgain a2 a3) e = p :=
  wrap_clamp_of_lands nodes_pos hbEdges (landing a2 a3) _ _ (fun _ => rfl) e p h

/-- The edge weights at `(e, q)`. -/
theorem weights_eq (e : Fin 4000000) (q : Fin 64) :
    weights a2 a3 (ix2 e q)
      = factorColumn a2 a3 (ix2 (clampNode nodes_pos (landingAgain a2 a3) e) (0 : Fin 1))
        * factorColumn a2 a3 (ix2 (clampNode nodes_pos (sourceColumn a2 a3) e) (0 : Fin 1)) :=
  weights_apply nodes_pos wfV hbEdges hbRepeat hbNodes (factors a2 a3) (landingAgain a2 a3) (sourceColumn a2 a3) e q

/-! ## One table -/

/-- THE TWO RESULT TABLES AGREE. -/
theorem tables_eq : Cert.KernelIdeal.Chain.resultTable (F := Ideal) a0 a1 a2 a3 = Cert.ReferenceIdeal.Chain.resultTable (F := Ideal) a0 a1 a2 a3 := by
  rw [kernel_fold, reference_fold]
  exact quarter_eq _ _
    (accLayers_eq nodes_pos wfS wfG zeroTable (landingColumn a2 a3) (sourceColumn a2 a3) (factorColumn a2 a3) (weights a2 a3)
      zeroTable_apply (clampNode nodes_pos (landingAgain a2 a3))
      (fun p => (factor_facts a2 a3 p).1) (fun p => (factor_facts a2 a3 p).2)
      (landingAgain_eq a2 a3) (weights_eq a2 a3) (initial a0 a1))
    hbTable

end Cert.Tables

end
-- ==== Proof.lean ====
/-
  Equivalence, over the extended reals, of a blocked three-layer graph propagation against its plain reference.

  Both programs take two embedding tables (600000 and 400000 rows of 64 entries) and two lists of 2,000,000 node
  numbers. They join the tables into one table of 1,000,000 rows, turn the lists into 4,000,000 directed edges (each
  pair both ways), give every node the factor (degree + 1e-8)^(-1/2), propagate three times — row p of the next table
  is the sum over the edges landing on p of factor(p) · factor(source) · (source row of the current table) — and
  return a quarter of the sum of the four tables, cut back into the two row ranges.

  The reference weights every gathered row by its edge's factor product before summing. The kernel program keeps the
  table multiplied by the factors, sums the plain gathered rows with the host's gather and scatter-add, and finishes
  the normalisation in a blocked kernel (one more blocked kernel does the first scaling): the factor of the landing
  node is taken out of the sum. On the extended reals that is sound because the factor is nonnegative and below +∞ —
  no finiteness of the tables is needed, so the precondition is never opened. The kernel multiplies by the single-
  precision word of 1/4 where the reference divides by 4: the same function on every extended real.

  The three frame claims are the generated frame certificates (the reference's is its generated run with the
  results dropped); the idealisation rewrote nothing; the value claim joins the kernel program's run, read boundary by
  boundary (Proof/KernelRun, KernelHops, KernelBlocks, KernelValue), to the reference's generated run (Proof/RefValue)
  through Proof/Tables.
-/
import proofs.«167429_j85753317032076_2_alg».proof.Defs
import proofs.«167429_j85753317032076_2_alg».proof.Proof.Gen.Kernel
import proofs.«167429_j85753317032076_2_alg».proof.Proof.Gen.Kernel.Frame
import proofs.«167429_j85753317032076_2_alg».proof.Proof.Gen.KernelIdeal
import proofs.«167429_j85753317032076_2_alg».proof.Proof.Gen.KernelIdeal.Frame
import proofs.«167429_j85753317032076_2_alg».proof.Proof.Gen.ReferenceIdeal
import proofs.«167429_j85753317032076_2_alg».proof.Proof.Gen.ReferenceIdeal.Run
import proofs.«167429_j85753317032076_2_alg».proof.Proof.Gen.Pre_finite_inputs
import proofs.«167429_j85753317032076_2_alg».proof.Proof.KernelRun
import proofs.«167429_j85753317032076_2_alg».proof.Proof.Tables
import Idealize.ShloMosaic.Adequacy
import Idealize.ShloMosaic.Init

noncomputable section

namespace Cert.Proof

open Idealize.ShloMosaic Idealize.ShloMosaic.TcCoe Idealize.SL.Sem

/-- The first result: the first 600000 rows of the kernel program's result table of the arguments. -/
def users (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v52) :=
  extractStridedSlice Cert.KernelIdeal.S600000x64 ![0, 0]
    (Cert.KernelIdeal.Chain.resultTable (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    Cert.KernelIdeal.Facts₀.slices_S1000000x64_S600000x64_0_0

/-- The second result: its last 400000 rows. -/
def items (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v53) :=
  extractStridedSlice Cert.KernelIdeal.S400000x64 ![600000, 0]
    (Cert.KernelIdeal.Chain.resultTable (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    Cert.KernelIdeal.Facts₀.slices_S1000000x64_S400000x64_600000_0

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel program ends with its results at the two cuts of its result table. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v52) = users m c
      ∧ r.2.mem ((c.tc : Thread Cert.KernelIdeal.nD Cert.KernelIdeal.τ).loc Cert.KernelIdeal.main_v53) = items m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => ⟨(h c).1.trans (Cert.KernelIdeal.Chain.users_eq m ρ c), (h c).2.1.trans (Cert.KernelIdeal.Chain.items_eq m ρ c), (h c).2.2⟩)
    (Cert.KernelIdeal.Results.run (F := Ideal) m ρ)

/-- The reference program, from arguments that agree with the kernel program's, ends with its results at the same two
    cuts: its result table is the kernel program's. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v74) = users m c
      ∧ r.2.mem ((c.tc : Thread Cert.ReferenceIdeal.nD Cert.ReferenceIdeal.τ).loc Cert.ReferenceIdeal.main_v75) = items m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Chain.users_eq m' c, (hagree c).1, (hagree c).2.1, (hagree c).2.2.1, (hagree c).2.2.2,
      ← Cert.Tables.tables_eq]
    rfl
  · rw [Cert.ReferenceIdeal.Chain.items_eq m' c, (hagree c).1, (hagree c).2.1, (hagree c).2.2.1, (hagree c).2.2.2,
      ← Cert.Tables.tables_eq]
    rfl

theorem algebraic : Cert.algebraic_KernelIdeal_ReferenceIdeal := fun m ρ m' ρ' _ hagree =>
  ⟨users m, items m, kernel_run m ρ, reference_run m m' ρ' hagree⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
